-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S3 : Shape := ⟨1, ![3]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S8192 .f32) (main_arg1 : FVec F S8192 .f32) (main_arg2 : FVec F S8192 .f32) (main_arg3 : FVec F S8192 .f32) (main_arg4 : FVec F S3 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S8192 : Shape := ⟨1, ![8192]⟩
abbrev S3 : Shape := ⟨1, ![3]⟩
abbrev S8192x1 : Shape := ⟨2, ![8192, 1]⟩
abbrev S1x8192 : Shape := ⟨2, ![1, 8192]⟩
abbrev S1x1 : Shape := ⟨2, ![1, 1]⟩
abbrev S256x1 : Shape := ⟨2, ![256, 1]⟩
abbrev S256x8192 : Shape := ⟨2, ![256, 8192]⟩
abbrev S256 : Shape := ⟨1, ![256]⟩
abbrev S1 : Shape := ⟨1, ![1]⟩
abbrev S_ : Shape := ⟨0, ![]⟩

abbrev nBuf : Space → Nat
  | .hbm => 34
  | .vmem => 15
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S3, .f32⟩
  | .hbm, ⟨5, _⟩ => ⟨S8192x1, .f32⟩
  | .hbm, ⟨6, _⟩ => ⟨S1x8192, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S1x8192, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x1, .f32⟩
  | .hbm, ⟨18, _⟩ => ⟨S1x8192, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S1x8192, .f32⟩
  | .local _ .vmem, ⟨3, _⟩ => ⟨S1x1, .f32⟩
  | .local _ .vmem, ⟨4, _⟩ => ⟨S1x1, .f32⟩
  | .local _ .vmem, ⟨5, _⟩ => ⟨S256x1, .f32⟩
  | .local _ .vmem, ⟨6, _⟩ => ⟨S256x1, .f32⟩
  | .local _ .vmem, ⟨7, _⟩ => ⟨S1x8192, .f32⟩
  | .local _ .vmem, ⟨8, _⟩ => ⟨S1x1, .f32⟩
  | .local _ .vmem, ⟨9, _⟩ => ⟨S1x1, .f32⟩
  | .local _ .vmem, ⟨10, _⟩ => ⟨S256x1, .f32⟩
  | .local _ .vmem, ⟨11, _⟩ => ⟨S256x1, .f32⟩
  | .local _ .vmem, ⟨12, _⟩ => ⟨S1x8192, .f32⟩
  | .local _ .vmem, ⟨13, _⟩ => ⟨S1x1, .f32⟩
  | .local _ .vmem, ⟨14, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_10 : BitVec 32 := 0#32
  let v24 : BitVec 1 := Scalar.cmpi .ne v23 c0_i32_10
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_10 : BitVec 32 := 0#32
  let v24 : BitVec 1 := Scalar.cmpi .ne v23 c0_i32_10
  v24

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .f32 = 32 ∨ (Rect.block (s := S8192x1) S256x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1.size a ≤ S8192x1.size a
  hwx2_0 : ∀ i : grid2.Coords, EltTy.bits .f32 = 32 ∨ (Rect.block (s := S8192x1) S256x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v10) S256x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S3 : Shape := ⟨1, ![3]⟩
abbrev S8192x1 : Shape := ⟨2, ![8192, 1]⟩
abbrev S_ : Shape := ⟨0, ![]⟩
abbrev S1x8192 : Shape := ⟨2, ![1, 8192]⟩
abbrev S8192x8192 : Shape := ⟨2, ![8192, 8192]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S3, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  h_S_ : 0 < S_.numel
  slices_S3_S1_0 : S3.Slices ![0] S1
  shapeCasts_S1_S_ : S1.ShapeCasts S_
  slices_S3_S1_1 : S3.Slices ![1] S1
  slices_S3_S1_2 : S3.Slices ![2] S1

variable [Facts₀]

class Facts : Prop extends Facts₀ where

variable [Facts]
-- ==== Proof.BR0Runs.lean ====
/-
  Launch 0 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.Kernel.Launch
import proofs.«161244_j22591527977071_2_alg».proof.Proof.Gen.Kernel.Skeleton
import proofs.«161244_j22591527977071_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-row window's staging buffer holds the row at every point, though it is fetched at the first only:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first point": the condition under which the body clears its accumulator. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the body copies the accumulator out. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the first point the output block is not stored into and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Nor at a middle point. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last point it is stored into. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x1 .f32 := (Memref.whole cc0_stg2_0 : Memref sig .tc .vmem S1x1 .f32).view
abbrev ms0_0 (t : Fin cfg0.N) : Memref sig .tc .vmem S256x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1x1 .f32 := Memref.whole cc0_scratch0
abbrev VS0_0 : View sig .tc .vmem S1x1 .f32 := scM0_0.view

/-! ## The body's run, case by case -/

set_option maxHeartbeats 4000000 in
/-- FIRST POINT. Inputs as found, the output block handed back untouched, the accumulator (found at anything)
    left with the pieces the two stores wrote. -/
noncomputable def kernelRun0_A (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨[], ?_, fun xi2 E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun0_B (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨[], ?_, fun xi2 E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun0_C (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨?_, ?_, fun E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR0Frame.lean ====
/-
  Launch 0 of the pair-sum kernel, point by point.

  After the body has run at grid points 0 … n the accumulator holds what the case runs compose to
  (outsAt0, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant (every scoped buffer this launch does not stage at anything, the generator register at some
    state) with the accumulator named. -/
theorem PhiA0_split (c : Dev nD) :
    (Pipeline.ΦA spec0 c : sProp 𝕄) ⊢ iprop((∃ d, owns (c : Thread nD τ) scM0_0 fullShare d) ∗ rest0 (F := F) c ∗ (∃ r, prngReg c r)) := by
  unfold Pipeline.ΦA rest0; rw [scopedRest0_eq]; simp only [scM0_0, owns_whole]
  iintro ⟨⟨H0, H1, H2, H3, H4, H5, H6, H7, H8, H9, H10⟩, Hg⟩
  isplitl [H0]; · iexact H0
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

theorem PhiA0_join (c : Dev nD) :
    iprop((∃ d, owns (c : Thread nD τ) scM0_0 fullShare d) ∗ rest0 (F := F) c ∗ (∃ r, prngReg c r)) ⊢ (Pipeline.ΦA spec0 c : sProp 𝕄) := by
  unfold Pipeline.ΦA rest0; rw [scopedRest0_eq]; simp only [scM0_0, owns_whole]
  iintro ⟨H0, ⟨H1, H2, H3, H4, H5, H6, H7, H8, H9, H10⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out0_A_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) : Vec F S1x1 .f32 :=
  VO0_2.read (Elt F) (VO0_2.writes (Elt F) VO0_2.junk (kernelRun0_A c i arg1 harg1 arg2 harg2 arg3 harg3 arg4 harg4 hc0 hc1 x0 x1).1)
/-- First point: the two stores into the accumulator cover it. -/
theorem scover0_A_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- What the first point leaves in the accumulator. -/
def sout0_A_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Middle point: the output block is not stored into. -/
def out0_B_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- What a middle point leaves in the accumulator. -/
def sout0_B_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Last point: the copy covers the output block. -/
theorem cover0_C_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output block. -/
def out0_C_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the accumulator. -/
def sout0_C_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 31 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 31) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ rest0 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 31 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    rw [PhiS0_castSucc V c t, PhiS0_zero V c _ _ h0]
    iintro ⟨HΦ, Ho, ⟨%d0, H0⟩, ⟨%d1, H1⟩, ⟨%d2, H2⟩⟩
    ihave HΦ' := (PhiA0_split c) $$ HΦ
    icases HΦ' with ⟨HS0, Hrest, Hg⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover0_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ h0]
      iintro ⟨⟨HS0, Hrest, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover0_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ h0]
      iintro ⟨⟨HS0, Hrest, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover0_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch is entered with is the invariant before the first point. -/
theorem hinΦ0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS0, Hrest, Hg⟩
  iapply (PhiA0_join c)
  isplitl [HS0]; · iexists _; iexact HS0
  isplitl [Hrest]; · iexact Hrest
  iexact Hg

theorem houtΦ0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.BR1Runs.lean ====
/-
  Launch 1 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.Kernel.Launch
import proofs.«161244_j22591527977071_2_alg».proof.Proof.Gen.Kernel.Skeleton
import proofs.«161244_j22591527977071_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds the tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-row window's staging buffer holds the row at every point, though it is fetched at the first only:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- "This is the first point": the condition under which the body clears its accumulator. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the condition under which the body copies the accumulator out. -/
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output block is not stored into and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Nor at a middle point. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point it is stored into. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x1 .f32 := (Memref.whole cc1_stg2_0 : Memref sig .tc .vmem S1x1 .f32).view
abbrev ms1_0 (t : Fin cfg1.N) : Memref sig .tc .vmem S256x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1x1 .f32 := Memref.whole cc1_scratch0
abbrev VS1_0 : View sig .tc .vmem S1x1 .f32 := scM1_0.view

/-! ## The body's run, case by case -/

set_option maxHeartbeats 4000000 in
/-- FIRST POINT. Inputs as found, the output block handed back untouched, the accumulator (found at anything)
    left with the pieces the two stores wrote. -/
noncomputable def kernelRun1_A (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨[], ?_, fun xi2 E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun1_B (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨[], ?_, fun xi2 E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun1_C (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨?_, ?_, fun E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR1Frame.lean ====
/-
  Launch 1 of the pair-sum kernel, point by point.

  After the body has run at grid points 0 … n the accumulator holds what the case runs compose to
  (outsAt1, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant (every scoped buffer this launch does not stage at anything, the generator register at some
    state) with the accumulator named. -/
theorem PhiA1_split (c : Dev nD) :
    (Pipeline.ΦA spec1 c : sProp 𝕄) ⊢ iprop((∃ d, owns (c : Thread nD τ) scM1_0 fullShare d) ∗ rest1 (F := F) c ∗ (∃ r, prngReg c r)) := by
  unfold Pipeline.ΦA rest1; rw [scopedRest1_eq]; simp only [scM1_0, owns_whole]
  iintro ⟨⟨H0, H1, H2, H3, H4, H5, H6, H7, H8, H9, H10⟩, Hg⟩
  isplitl [H5]; · iexact H5
  isplitr [Hg]
  ·
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  · iexact Hg

theorem PhiA1_join (c : Dev nD) :
    iprop((∃ d, owns (c : Thread nD τ) scM1_0 fullShare d) ∗ rest1 (F := F) c ∗ (∃ r, prngReg c r)) ⊢ (Pipeline.ΦA spec1 c : sProp 𝕄) := by
  unfold Pipeline.ΦA rest1; rw [scopedRest1_eq]; simp only [scM1_0, owns_whole]
  iintro ⟨H5, ⟨H0, H1, H2, H3, H4, H6, H7, H8, H9, H10⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out1_A_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) : Vec F S1x1 .f32 :=
  VO1_2.read (Elt F) (VO1_2.writes (Elt F) VO1_2.junk (kernelRun1_A c i arg1 harg1 arg2 harg2 arg3 harg3 arg4 harg4 hc0 hc1 x0 x1).1)
/-- First point: the two stores into the accumulator cover it. -/
theorem scover1_A_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y
/-- What the first point leaves in the accumulator. -/
def sout1_A_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Middle point: the output block is not stored into. -/
def out1_B_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)
theorem scover1_B_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y
/-- What a middle point leaves in the accumulator. -/
def sout1_B_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Last point: the copy covers the output block. -/
theorem cover1_C_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- What the last point leaves in the output block. -/
def out1_C_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)
theorem scover1_C_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- What the last point leaves in the accumulator. -/
def sout1_C_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 31 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 31 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    rw [PhiS1_castSucc V c t, PhiS1_zero V c _ _ h0]
    iintro ⟨HΦ, Ho, ⟨%d0, H0⟩, ⟨%d1, H1⟩, ⟨%d2, H2⟩⟩
    ihave HΦ' := (PhiA1_split c) $$ HΦ
    icases HΦ' with ⟨HS0, Hrest, Hg⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover1_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ h0]
      iintro ⟨⟨HS0, Hrest, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover1_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨HS0, Hrest, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover1_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch is entered with is the invariant before the first point. -/
theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hrest, Hg⟩
  iapply (PhiA1_join c)
  isplitl [HS0]; · iexists _; iexact HS0
  isplitl [Hrest]; · iexact Hrest
  iexact Hg

theorem houtΦ1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.BR2Runs.lean ====
/-
  Launch 2 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.Kernel.Launch
import proofs.«161244_j22591527977071_2_alg».proof.Proof.Gen.Kernel.Skeleton
import proofs.«161244_j22591527977071_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window's staging buffer holds the tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-row window's staging buffer holds the row at every point, though it is fetched at the first only:
    its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, decided over the grid -/

/-- "This is the first point": the condition under which the body clears its accumulator. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the body copies the accumulator out. -/
abbrev cond2_1 (i : grid2.Coords) : Prop := k2_cond2 i = 1#1
theorem hcond2_1 : ∀ t : Fin cfg2.N, cond2_1 (grid2.coords t) ↔ t.val = 31 :=
  (by decide +kernel : ∀ t : Fin grid2.N, cond2_1 (grid2.coords t) ↔ t.val = 31)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the first point the output block is not stored into and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Nor at a middle point. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point it is stored into. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x1 .f32 := (Memref.whole cc2_stg2_0 : Memref sig .tc .vmem S1x1 .f32).view
abbrev ms2_0 (t : Fin cfg2.N) : Memref sig .tc .vmem S256x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x8192 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1x1 .f32 := Memref.whole cc2_scratch0
abbrev VS2_0 : View sig .tc .vmem S1x1 .f32 := scM2_0.view

/-! ## The body's run, case by case -/

set_option maxHeartbeats 4000000 in
/-- FIRST POINT. Inputs as found, the output block handed back untouched, the accumulator (found at anything)
    left with the pieces the two stores wrote. -/
noncomputable def kernelRun2_A (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨[], ?_, fun xi2 E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun2_B (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨[], ?_, fun xi2 E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun2_C (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨?_, ?_, fun E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR2Frame.lean ====
/-
  Launch 2 of the pair-sum kernel, point by point.

  After the body has run at grid points 0 … n the accumulator holds what the case runs compose to
  (outsAt2, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant (every scoped buffer this launch does not stage at anything, the generator register at some
    state) with the accumulator named. -/
theorem PhiA2_split (c : Dev nD) :
    (Pipeline.ΦA spec2 c : sProp 𝕄) ⊢ iprop((∃ d, owns (c : Thread nD τ) scM2_0 fullShare d) ∗ rest2 (F := F) c ∗ (∃ r, prngReg c r)) := by
  unfold Pipeline.ΦA rest2; rw [scopedRest2_eq]; simp only [scM2_0, owns_whole]
  iintro ⟨⟨H0, H1, H2, H3, H4, H5, H6, H7, H8, H9, H10⟩, Hg⟩
  isplitl [H10]; · iexact H10
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hg

theorem PhiA2_join (c : Dev nD) :
    iprop((∃ d, owns (c : Thread nD τ) scM2_0 fullShare d) ∗ rest2 (F := F) c ∗ (∃ r, prngReg c r)) ⊢ (Pipeline.ΦA spec2 c : sProp 𝕄) := by
  unfold Pipeline.ΦA rest2; rw [scopedRest2_eq]; simp only [scM2_0, owns_whole]
  iintro ⟨H10, ⟨H0, H1, H2, H3, H4, H5, H6, H7, H8, H9⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out2_A_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) : Vec F S1x1 .f32 :=
  VO2_2.read (Elt F) (VO2_2.writes (Elt F) VO2_2.junk (kernelRun2_A c i arg1 harg1 arg2 harg2 arg3 harg3 arg4 harg4 hc0 hc1 x0 x1).1)
/-- First point: the two stores into the accumulator cover it. -/
theorem scover2_A_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y
/-- What the first point leaves in the accumulator. -/
def sout2_A_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) : Vec F S1x1 .f32 :=
  VS2_0.read (Elt F) (VS2_0.writes (Elt F) VS2_0.junk (kernelRun2_A c i arg1 harg1 arg2 harg2 arg3 harg3 arg4 harg4 hc0 hc1 x0 x1).2.1)

/-- Middle point: the output block is not stored into. -/
def out2_B_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 hc1 x0 x1 xs0).1)
theorem scover2_B_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) (y : S1x1.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x1.size (by sl_kernel_rfl) y
/-- What a middle point leaves in the accumulator. -/
def sout2_B_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 hc1 x0 x1 xs0).2.1)

/-- Last point: the copy covers the output block. -/
theorem cover2_C_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point leaves in the output block. -/
def out2_C_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) : Vec F S1x1 .f32 :=
  VO2_2.read (Elt F) (VO2_2.writes (Elt F) VO2_2.junk (kernelRun2_C c i arg1 harg1 arg2 harg2 arg3 harg3 arg4 harg4 hc0 hc1 x0 x1 xs0).1)
theorem scover2_C_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- What the last point leaves in the accumulator. -/
def sout2_C_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) : Vec F S1x1 .f32 :=
  VS2_0.read (Elt F) (VS2_0.writes (Elt F) VS2_0.junk (kernelRun2_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt2 (c : Dev nD) : (n : ℕ) → n < cfg2.N → Vec F S1x1 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩))
  | n + 1, hn =>
    if h1 : n + 1 = 31 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ rest2 (F := F) c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare ((outsAt2 V c n hn).2) ∗ rest2 (F := F) c ∗ (∃ r, prngReg c r)) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ rest2 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val = 0
  · have h1 : ¬t.val = 31 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    rw [PhiS2_castSucc V c t, PhiS2_zero V c _ _ h0]
    iintro ⟨HΦ, Ho, ⟨%d0, H0⟩, ⟨%d1, H1⟩, ⟨%d2, H2⟩⟩
    ihave HΦ' := (PhiA2_split c) $$ HΦ
    icases HΦ' with ⟨HS0, Hrest, Hg⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover2_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ h0]
      iintro ⟨⟨HS0, Hrest, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover2_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ h0]
      iintro ⟨⟨HS0, Hrest, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover2_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch is entered with is the invariant before the first point. -/
theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS0, Hrest, Hg⟩
  iapply (PhiA2_join c)
  isplitl [HS0]; · iexists _; iexact HS0
  isplitl [Hrest]; · iexact Hrest
  iexact Hg

theorem houtΦ2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.BRun.lean ====
/-
  The whole run of the kernel program: four stretches of host operations around three launches of the pair-sum
  kernel, composed in @main's order. Between two items every unscoped buffer of the core is held at a valuation
  that is a fold from the launch memory: a host stretch applies its operations; a launch leaves its two input
  arrays as it found them and its one-entry output at its last write-back. The run ends with every unscoped
  buffer at the last valuation of the fold; the argument arrays are read back through the fold to the launch
  memory, since no item writes one.
-/
import proofs.«161244_j22591527977071_2_alg».proof.Proof.BR0Frame
import proofs.«161244_j22591527977071_2_alg».proof.Proof.BR1Frame
import proofs.«161244_j22591527977071_2_alg».proof.Proof.BR2Frame
import proofs.«161244_j22591527977071_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items: a fold through @main -/

/-- Core `c`'s buffers at launch. -/
abbrev W0 : Dev nD → Valuation τ sig (Elt F) := fun c b => m ((c : Dev nD), b)

/-- Launch 0 is entered with the buffers at this valuation: the host stretch before it has run. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- It is left with the launch's three arrays at what the write-backs leave (the two inputs as entered, the one-entry
    output at its last write-back) and every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Launch 1 is entered with the buffers at this valuation: the host stretch before it has run. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- It is left with the launch's three arrays at what the write-backs leave (the two inputs as entered, the one-entry
    output at its last write-back) and every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Launch 2 is entered with the buffers at this valuation: the host stretch before it has run. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- It is left with the launch's three arrays at what the write-backs leave (the two inputs as entered, the one-entry
    output at its last write-back) and every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch. -/
abbrev W7 : Dev nD → Valuation τ sig (Elt F) := fun c => StableHlo.after hostOps3 (W6 m c)

/-- No host operation and no launch writes `main_arg0`: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- No host operation and no launch writes `main_arg1`: it ends as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- No host operation and no launch writes `main_arg2`: it ends as launched. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- No host operation and no launch writes `main_arg3`: it ends as launched. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- No host operation and no launch writes `main_arg4`: it ends as launched. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Every launch's proof data, each at the contents its launch is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register. -/
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- LAUNCH 0 as a segment: entered from every unscoped buffer at `W1`, left at `W2`. Its arrays are split out of the
    unscoped buffers and put back at their exit contents; the generator register goes into the invariant and comes back;
    the accumulator's value is forgotten at the exit; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec0 c ∗ ∃ r, prngReg c r) : sProp 𝕄) ⊢ (dat0 (V1 m) c).Φ 0 := hinΦ0 (V1 m) c
    rw [show (pdats m 0 c).Φ 0 = (dat0 (V1 m) c).Φ 0 from rfl]
    iintro ⟨Hp, -, Hr⟩
    iapply h1
    isplitl [Hr]; · iexact Hr
    iexact Hp
  hout c := by
    rw [Pipeline.ownSems0_none, show (pdats m 0 c).Φ (Fin.last _) = (dat0 (V1 m) c).Φ (Fin.last cfg0.N) from rfl]
    have h2 : (dat0 (V1 m) c).Φ (Fin.last cfg0.N) ⊢ (iprop(Pipeline.scopedRest (Ix := Unit) (Name := ℕ) (U := UR sig nD τ) (Lvl := ℕ) (Val := Elt F) spec0 c ∗ ∃ r, prngReg c r) : sProp 𝕄) := houtΦ0 (V1 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered from every unscoped buffer at `W3`, left at `W4`. Its arrays are split out of the
    unscoped buffers and put back at their exit contents; the generator register goes into the invariant and comes back;
    the accumulator's value is forgotten at the exit; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec1 c ∗ ∃ r, prngReg c r) : sProp 𝕄) ⊢ (dat1 (V3 m) c).Φ 0 := hinΦ1 (V3 m) c
    rw [show (pdats m 1 c).Φ 0 = (dat1 (V3 m) c).Φ 0 from rfl]
    iintro ⟨Hp, -, Hr⟩
    iapply h1
    isplitl [Hr]; · iexact Hr
    iexact Hp
  hout c := by
    rw [Pipeline.ownSems0_none, show (pdats m 1 c).Φ (Fin.last _) = (dat1 (V3 m) c).Φ (Fin.last cfg1.N) from rfl]
    have h2 : (dat1 (V3 m) c).Φ (Fin.last cfg1.N) ⊢ (iprop(Pipeline.scopedRest (Ix := Unit) (Name := ℕ) (U := UR sig nD τ) (Lvl := ℕ) (Val := Elt F) spec1 c ∗ ∃ r, prngReg c r) : sProp 𝕄) := houtΦ1 (V3 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered from every unscoped buffer at `W5`, left at `W6`. Its arrays are split out of the
    unscoped buffers and put back at their exit contents; the generator register goes into the invariant and comes back;
    the accumulator's value is forgotten at the exit; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄) ⊢ (dat2 (V5 m) c).Φ 0 := hinΦ2 (V5 m) c
    rw [show (pdats m 2 c).Φ 0 = (dat2 (V5 m) c).Φ 0 from rfl]
    iintro ⟨Hp, -, Hr⟩
    iapply h1
    isplitl [Hr]; · iexact Hr
    iexact Hp
  hout c := by
    rw [Pipeline.ownSems0_none, show (pdats m 2 c).Φ (Fin.last _) = (dat2 (V5 m) c).Φ (Fin.last cfg2.N) from rfl]
    have h2 : (dat2 (V5 m) c).Φ (Fin.last cfg2.N) ⊢ (iprop(Pipeline.scopedRest (Ix := Unit) (Name := ℕ) (U := UR sig nD τ) (Lvl := ℕ) (Val := Elt F) spec2 c ∗ ∃ r, prngReg c r) : sProp 𝕄) := houtΦ2 (V5 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state every unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.Kernel.Hand

end
-- ==== Proof.IR0Runs.lean ====
/-
  Launch 0 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.KernelIdeal.Launch
import proofs.«161244_j22591527977071_2_alg».proof.Proof.Gen.KernelIdeal.Skeleton
import proofs.«161244_j22591527977071_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile window's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-row window's staging buffer holds the row at every point, though it is fetched at the first only:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first point": the condition under which the body clears its accumulator. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the body copies the accumulator out. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the first point the output block is not stored into and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- Nor at a middle point. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last point it is stored into. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x1 .f32 := (Memref.whole cc0_stg2_0 : Memref sig .tc .vmem S1x1 .f32).view
abbrev ms0_0 (t : Fin cfg0.N) : Memref sig .tc .vmem S256x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1x1 .f32 := Memref.whole cc0_scratch0
abbrev VS0_0 : View sig .tc .vmem S1x1 .f32 := scM0_0.view

/-! ## The body's run, case by case -/

set_option maxHeartbeats 4000000 in
/-- FIRST POINT. Inputs as found, the output block handed back untouched, the accumulator (found at anything)
    left with the pieces the two stores wrote. -/
noncomputable def kernelRun0_A (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨[], ?_, fun xi2 E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun0_B (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨[], ?_, fun xi2 E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun0_C (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__pair_sum_sq_kernel i arg1 harg1 arg2 harg2 arg3 harg3 arg4 harg4) K } := by
  refine ⟨?_, ?_, fun E K => ?run⟩
  case run =>
    simp only [cc0__pair_sum_sq_kernel_eq_skeleton]; unfold cc0__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.IR0Frame.lean ====
/-
  Launch 0 of the pair-sum kernel, point by point.

  After the body has run at grid points 0 … n the accumulator holds what the case runs compose to
  (outsAt0, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.IR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant (every scoped buffer this launch does not stage at anything, the generator register at some
    state) with the accumulator named. -/
theorem PhiA0_split (c : Dev nD) :
    (Pipeline.ΦA spec0 c : sProp 𝕄) ⊢ iprop((∃ d, owns (c : Thread nD τ) scM0_0 fullShare d) ∗ rest0 (F := F) c ∗ (∃ r, prngReg c r)) := by
  unfold Pipeline.ΦA rest0; rw [scopedRest0_eq]; simp only [scM0_0, owns_whole]
  iintro ⟨⟨H0, H1, H2, H3, H4, H5, H6, H7, H8, H9, H10⟩, Hg⟩
  isplitl [H0]; · iexact H0
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

theorem PhiA0_join (c : Dev nD) :
    iprop((∃ d, owns (c : Thread nD τ) scM0_0 fullShare d) ∗ rest0 (F := F) c ∗ (∃ r, prngReg c r)) ⊢ (Pipeline.ΦA spec0 c : sProp 𝕄) := by
  unfold Pipeline.ΦA rest0; rw [scopedRest0_eq]; simp only [scM0_0, owns_whole]
  iintro ⟨H0, ⟨H1, H2, H3, H4, H5, H6, H7, H8, H9, H10⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out0_A_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) : Vec F S1x1 .f32 :=
  VO0_2.read (Elt F) (VO0_2.writes (Elt F) VO0_2.junk (kernelRun0_A c i arg1 harg1 arg2 harg2 arg3 harg3 arg4 harg4 hc0 hc1 x0 x1).1)
/-- First point: the two stores into the accumulator cover it. -/
theorem scover0_A_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- What the first point leaves in the accumulator. -/
def sout0_A_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Middle point: the output block is not stored into. -/
def out0_B_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- What a middle point leaves in the accumulator. -/
def sout0_B_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Last point: the copy covers the output block. -/
theorem cover0_C_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output block. -/
def out0_C_2 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the accumulator. -/
def sout0_C_0 (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 31 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 31) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ rest0 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 31 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    rw [PhiS0_castSucc V c t, PhiS0_zero V c _ _ h0]
    iintro ⟨HΦ, Ho, ⟨%d0, H0⟩, ⟨%d1, H1⟩, ⟨%d2, H2⟩⟩
    ihave HΦ' := (PhiA0_split c) $$ HΦ
    icases HΦ' with ⟨HS0, Hrest, Hg⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover0_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ h0]
      iintro ⟨⟨HS0, Hrest, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover0_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ h0]
      iintro ⟨⟨HS0, Hrest, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover0_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch is entered with is the invariant before the first point. -/
theorem hinΦ0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS0, Hrest, Hg⟩
  iapply (PhiA0_join c)
  isplitl [HS0]; · iexists _; iexact HS0
  isplitl [Hrest]; · iexact Hrest
  iexact Hg

theorem houtΦ0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.IR1Runs.lean ====
/-
  Launch 1 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.KernelIdeal.Launch
import proofs.«161244_j22591527977071_2_alg».proof.Proof.Gen.KernelIdeal.Skeleton
import proofs.«161244_j22591527977071_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds the tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-row window's staging buffer holds the row at every point, though it is fetched at the first only:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, decided over the grid -/

/-- "This is the first point": the condition under which the body clears its accumulator. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the condition under which the body copies the accumulator out. -/
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output block is not stored into and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Nor at a middle point. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point it is stored into. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x1 .f32 := (Memref.whole cc1_stg2_0 : Memref sig .tc .vmem S1x1 .f32).view
abbrev ms1_0 (t : Fin cfg1.N) : Memref sig .tc .vmem S256x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1x1 .f32 := Memref.whole cc1_scratch0
abbrev VS1_0 : View sig .tc .vmem S1x1 .f32 := scM1_0.view

/-! ## The body's run, case by case -/

set_option maxHeartbeats 4000000 in
/-- FIRST POINT. Inputs as found, the output block handed back untouched, the accumulator (found at anything)
    left with the pieces the two stores wrote. -/
noncomputable def kernelRun1_A (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨[], ?_, fun xi2 E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun1_B (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨[], ?_, fun xi2 E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun1_C (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__pair_sum_sq_kernel i arg1 harg1 arg2 harg2 arg3 harg3 arg4 harg4) K } := by
  refine ⟨?_, ?_, fun E K => ?run⟩
  case run =>
    simp only [cc1__pair_sum_sq_kernel_eq_skeleton]; unfold cc1__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.IR1Frame.lean ====
/-
  Launch 1 of the pair-sum kernel, point by point.

  After the body has run at grid points 0 … n the accumulator holds what the case runs compose to
  (outsAt1, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.IR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant (every scoped buffer this launch does not stage at anything, the generator register at some
    state) with the accumulator named. -/
theorem PhiA1_split (c : Dev nD) :
    (Pipeline.ΦA spec1 c : sProp 𝕄) ⊢ iprop((∃ d, owns (c : Thread nD τ) scM1_0 fullShare d) ∗ rest1 (F := F) c ∗ (∃ r, prngReg c r)) := by
  unfold Pipeline.ΦA rest1; rw [scopedRest1_eq]; simp only [scM1_0, owns_whole]
  iintro ⟨⟨H0, H1, H2, H3, H4, H5, H6, H7, H8, H9, H10⟩, Hg⟩
  isplitl [H5]; · iexact H5
  isplitr [Hg]
  ·
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  · iexact Hg

theorem PhiA1_join (c : Dev nD) :
    iprop((∃ d, owns (c : Thread nD τ) scM1_0 fullShare d) ∗ rest1 (F := F) c ∗ (∃ r, prngReg c r)) ⊢ (Pipeline.ΦA spec1 c : sProp 𝕄) := by
  unfold Pipeline.ΦA rest1; rw [scopedRest1_eq]; simp only [scM1_0, owns_whole]
  iintro ⟨H5, ⟨H0, H1, H2, H3, H4, H6, H7, H8, H9, H10⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out1_A_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) : Vec F S1x1 .f32 :=
  VO1_2.read (Elt F) (VO1_2.writes (Elt F) VO1_2.junk (kernelRun1_A c i arg1 harg1 arg2 harg2 arg3 harg3 arg4 harg4 hc0 hc1 x0 x1).1)
/-- First point: the two stores into the accumulator cover it. -/
theorem scover1_A_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y
/-- What the first point leaves in the accumulator. -/
def sout1_A_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Middle point: the output block is not stored into. -/
def out1_B_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)
theorem scover1_B_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y
/-- What a middle point leaves in the accumulator. -/
def sout1_B_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Last point: the copy covers the output block. -/
theorem cover1_C_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- What the last point leaves in the output block. -/
def out1_C_2 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)
theorem scover1_C_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- What the last point leaves in the accumulator. -/
def sout1_C_0 (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 31 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : ¬t.val = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : ¬t.val = 31 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    rw [PhiS1_castSucc V c t, PhiS1_zero V c _ _ h0]
    iintro ⟨HΦ, Ho, ⟨%d0, H0⟩, ⟨%d1, H1⟩, ⟨%d2, H2⟩⟩
    ihave HΦ' := (PhiA1_split c) $$ HΦ
    icases HΦ' with ⟨HS0, Hrest, Hg⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover1_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ h0]
      iintro ⟨⟨HS0, Hrest, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover1_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ h0]
      iintro ⟨⟨HS0, Hrest, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover1_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch is entered with is the invariant before the first point. -/
theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hrest, Hg⟩
  iapply (PhiA1_join c)
  isplitl [HS0]; · iexists _; iexact HS0
  isplitl [Hrest]; · iexact Hrest
  iexact Hg

theorem houtΦ1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.IR2Runs.lean ====
/-
  Launch 2 of the pair-sum kernel: what one run of its body does to the buffers it is handed.

  The body has two conditionals on the grid coordinate t (0 ≤ t < 32): at t = 0 it first clears the one-entry
  accumulator it keeps between points; at every point it adds the tile's sum to the accumulator; at t = 31 it
  copies the accumulator into the one-entry output block. So a run is in one of three cases — the first point,
  a middle point, the last point — and in each case the run leaves: the two input blocks as found, the output
  block untouched (first and middle points) or overwritten (last point), the accumulator overwritten.
  Everything here is stated at a parameter V, the contents of the core's buffers when the launch is entered.
-/
import proofs.«161244_j22591527977071_2_alg».proof.Proof.Gen.KernelIdeal.Launch
import proofs.«161244_j22591527977071_2_alg».proof.Proof.Gen.KernelIdeal.Skeleton
import proofs.«161244_j22591527977071_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window's staging buffer holds the tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-row window's staging buffer holds the row at every point, though it is fetched at the first only:
    its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, decided over the grid -/

/-- "This is the first point": the condition under which the body clears its accumulator. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the body copies the accumulator out. -/
abbrev cond2_1 (i : grid2.Coords) : Prop := k2_cond2 i = 1#1
theorem hcond2_1 : ∀ t : Fin cfg2.N, cond2_1 (grid2.coords t) ↔ t.val = 31 :=
  (by decide +kernel : ∀ t : Fin grid2.N, cond2_1 (grid2.coords t) ↔ t.val = 31)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the first point the output block is not stored into and not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Nor at a middle point. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At the last point it is stored into. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x1 .f32 := (Memref.whole cc2_stg2_0 : Memref sig .tc .vmem S1x1 .f32).view
abbrev ms2_0 (t : Fin cfg2.N) : Memref sig .tc .vmem S256x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x8192 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1x1 .f32 := Memref.whole cc2_scratch0
abbrev VS2_0 : View sig .tc .vmem S1x1 .f32 := scM2_0.view

/-! ## The body's run, case by case -/

set_option maxHeartbeats 4000000 in
/-- FIRST POINT. Inputs as found, the output block handed back untouched, the accumulator (found at anything)
    left with the pieces the two stores wrote. -/
noncomputable def kernelRun2_A (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S256x1 .f32) (x1 : Vec F S1x8192 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨[], ?_, fun xi2 E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- MIDDLE POINT. As the first, but the accumulator is found at what the point before left (xs0). -/
noncomputable def kernelRun2_B (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨[], ?_, fun xi2 E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT. The accumulator is found at what the point before left; the output block (found at anything)
    is left with the pieces the copy wrote. -/
noncomputable def kernelRun2_C (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S256x1 .f32) (x1 : Vec F S1x8192 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__pair_sum_sq_kernel i arg1 harg1 arg2 harg2 arg3 harg3 arg4 harg4) K } := by
  refine ⟨?_, ?_, fun E K => ?run⟩
  case run =>
    simp only [cc2__pair_sum_sq_kernel_eq_skeleton]; unfold cc2__pair_sum_sq_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.IR2Frame.lean ====
/-
  Launch 2 of the pair-sum kernel, point by point.

  After the body has run at grid points 0 … n the accumulator holds what the case runs compose to
  (outsAt2, second component) and, at the last point, the output block holds the accumulator's copy
  (first component). The launch's invariant between points is: the accumulator at exactly that value
  (before the first point: at anything), the core's other scoped buffers at anything, the generator
  register at some state. With it the body's obligation holds at every point, by cases on the point.
-/
import proofs.«161244_j22591527977071_2_alg».proof.Proof.IR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scoped buffers beside the accumulator -/

/-- The core's scoped buffers that are neither a staging buffer of this launch nor its accumulator, each whole at
    some contents: the body never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant (every scoped buffer this launch does not stage at anything, the generator register at some
    state) with the accumulator named. -/
theorem PhiA2_split (c : Dev nD) :
    (Pipeline.ΦA spec2 c : sProp 𝕄) ⊢ iprop((∃ d, owns (c : Thread nD τ) scM2_0 fullShare d) ∗ rest2 (F := F) c ∗ (∃ r, prngReg c r)) := by
  unfold Pipeline.ΦA rest2; rw [scopedRest2_eq]; simp only [scM2_0, owns_whole]
  iintro ⟨⟨H0, H1, H2, H3, H4, H5, H6, H7, H8, H9, H10⟩, Hg⟩
  isplitl [H10]; · iexact H10
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hg

theorem PhiA2_join (c : Dev nD) :
    iprop((∃ d, owns (c : Thread nD τ) scM2_0 fullShare d) ∗ rest2 (F := F) c ∗ (∃ r, prngReg c r)) ⊢ (Pipeline.ΦA spec2 c : sProp 𝕄) := by
  unfold Pipeline.ΦA rest2; rw [scopedRest2_eq]; simp only [scM2_0, owns_whole]
  iintro ⟨H10, ⟨H0, H1, H2, H3, H4, H5, H6, H7, H8, H9⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hg

/-! ## What each case leaves -/

/-- First point: the output block is not stored into; a placeholder nothing consults. -/
def out2_A_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) : Vec F S1x1 .f32 :=
  VO2_2.read (Elt F) (VO2_2.writes (Elt F) VO2_2.junk (kernelRun2_A c i arg1 harg1 arg2 harg2 arg3 harg3 arg4 harg4 hc0 hc1 x0 x1).1)
/-- First point: the two stores into the accumulator cover it. -/
theorem scover2_A_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) (y : S1x1.Idx) :
    ∃ pc ∈ (kernelRun2_A c i arg1 harg1 arg2 harg2 arg3 harg3 arg4 harg4 hc0 hc1 x0 x1).2.1, y ∈ pc.1.set :=
  View.cover_of_tiledL (kernelRun2_A c i arg1 harg1 arg2 harg2 arg3 harg3 arg4 harg4 hc0 hc1 x0 x1).2.1 S1x1.size (by sl_kernel_rfl) y
/-- What the first point leaves in the accumulator. -/
def sout2_A_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) : Vec F S1x1 .f32 :=
  VS2_0.read (Elt F) (VS2_0.writes (Elt F) VS2_0.junk (kernelRun2_A c i arg1 harg1 arg2 harg2 arg3 harg3 arg4 harg4 hc0 hc1 x0 x1).2.1)

/-- Middle point: the output block is not stored into. -/
def out2_B_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 hc1 x0 x1 xs0).1)
theorem scover2_B_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) (y : S1x1.Idx) :
    ∃ pc ∈ (kernelRun2_B c i arg1 harg1 arg2 harg2 arg3 harg3 arg4 harg4 hc0 hc1 x0 x1 xs0).2.1, y ∈ pc.1.set :=
  View.cover_of_tiledL (kernelRun2_B c i arg1 harg1 arg2 harg2 arg3 harg3 arg4 harg4 hc0 hc1 x0 x1 xs0).2.1 S1x1.size (by sl_kernel_rfl) y
/-- What a middle point leaves in the accumulator. -/
def sout2_B_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 hc1 x0 x1 xs0).2.1)

/-- Last point: the copy covers the output block. -/
theorem cover2_C_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point leaves in the output block. -/
def out2_C_2 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) : Vec F S1x1 .f32 :=
  VO2_2.read (Elt F) (VO2_2.writes (Elt F) VO2_2.junk (kernelRun2_C c i arg1 harg1 arg2 harg2 arg3 harg3 arg4 harg4 hc0 hc1 x0 x1 xs0).1)
theorem scover2_C_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- What the last point leaves in the accumulator. -/
def sout2_C_0 (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) : Vec F S1x1 .f32 :=
  VS2_0.read (Elt F) (VS2_0.writes (Elt F) VS2_0.junk (kernelRun2_C c i arg1 harg1 arg2 harg2 arg3 harg3 arg4 harg4 hc0 hc1 x0 x1 xs0).2.1)

/-! ## The accumulation, by recursion on the point -/

/-- What the output block (first component) and the accumulator (second) hold after the body at position n:
    position 0 is the first-point case on the point's blocks; a later position is the middle or the last case on the
    point's blocks and on what the position before left in the accumulator. -/
def outsAt2 (c : Dev nD) : (n : ℕ) → n < cfg2.N → Vec F S1x1 .f32 × Vec F S1x1 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩))
  | n + 1, hn =>
    if h1 : n + 1 = 31 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) (h1 : ¬t.val = 31) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 31) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position n: at n = 0 the class invariant (the accumulator at anything); afterwards the accumulator at what
    position n − 1 left, the other scoped buffers at anything, the generator register at some state. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ rest2 (F := F) c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare ((outsAt2 V c n hn).2) ∗ rest2 (F := F) c ∗ (∃ r, prngReg c r)) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ rest2 (F := F) c ∗ (∃ r, prngReg c r)) := by
  cases n with
  | zero => exact absurd rfl hz
  | succ n => rfl

/-! ## The proof data -/

/-- The launch's proof data on core c: its arrays as it finds them; after the body at point t the two input windows'
    buffers at their blocks and the output window's at what the accumulation says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the input windows' buffers hold their blocks; the point is the first, a middle or the last
    one; the invariant hands the body the accumulator at what the point before left (at anything at the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val = 0
  · have h1 : ¬t.val = 31 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0; (try dsimp only)
    rw [PhiS2_castSucc V c t, PhiS2_zero V c _ _ h0]
    iintro ⟨HΦ, Ho, ⟨%d0, H0⟩, ⟨%d1, H1⟩, ⟨%d2, H2⟩⟩
    ihave HΦ' := (PhiA2_split c) $$ HΦ
    icases HΦ' with ⟨HS0, Hrest, Hg⟩
    iapply ((kernelRun2_A c (grid2.coords t) _ _ _ _ _ _ _ _ ((hcond2_0 t).mpr h0) (fun h => h1 ((hcond2_1 t).mp h)) (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0]
      · unfold owns; iexists _; isplitr
        swap; · iexact HS0
        ipureintro; exact View.read_writes_of_cover _ _ _ _ _ (scover2_A_0 c _ _ _ _ _ _ _ _ _ _ _ _ _)
      isplitl [Hrest]; · iexact Hrest
      iexact Hg
    isplitl [Ho]; · iexact Ho
    isplitl [H0]; · iexact H0
    isplitl [H1]; · iexact H1
    iexists _; iexact H2
  · by_cases h1 : t.val = 31
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ h0]
      iintro ⟨⟨HS0, Hrest, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0]
        · unfold owns; iexists _; isplitr
          swap; · iexact HS0
          ipureintro; exact View.read_writes_of_cover _ _ _ _ _ (scover2_C_0 c _ _ _ _ _ _ _ _ _ _ _ _ _ _)
        isplitl [Hrest]; · iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ h0]
      iintro ⟨⟨HS0, Hrest, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0]
        · unfold owns; iexists _; isplitr
          swap; · iexact HS0
          ipureintro; exact View.read_writes_of_cover _ _ _ _ _ (scover2_B_0 c _ _ _ _ _ _ _ _ _ _ _ _ _ _)
        isplitl [Hrest]; · iexact Hrest
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch is entered with is the invariant before the first point. -/
theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS0, Hrest, Hg⟩
  iapply (PhiA2_join c)
  isplitl [HS0]; · iexists _; iexact HS0
  isplitl [Hrest]; · iexact Hrest
  iexact Hg

theorem houtΦ2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.IRun.lean ====
/-
  The whole run of the kernel program: four stretches of host operations around three launches of the pair-sum
  kernel, composed in @main's order. Between two items every unscoped buffer of the core is held at a valuation
  that is a fold from the launch memory: a host stretch applies its operations; a launch leaves its two input
  arrays as it found them and its one-entry output at its last write-back. The run ends with every unscoped
  buffer at the last valuation of the fold; the argument arrays are read back through the fold to the launch
  memory, since no item writes one.
-/
import proofs.«161244_j22591527977071_2_alg».proof.Proof.IR0Frame
import proofs.«161244_j22591527977071_2_alg».proof.Proof.IR1Frame
import proofs.«161244_j22591527977071_2_alg».proof.Proof.IR2Frame
import proofs.«161244_j22591527977071_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items: a fold through @main -/

/-- Core `c`'s buffers at launch. -/
abbrev W0 : Dev nD → Valuation τ sig (Elt F) := fun c b => m ((c : Dev nD), b)

/-- Launch 0 is entered with the buffers at this valuation: the host stretch before it has run. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- It is left with the launch's three arrays at what the write-backs leave (the two inputs as entered, the one-entry
    output at its last write-back) and every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Launch 1 is entered with the buffers at this valuation: the host stretch before it has run. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- It is left with the launch's three arrays at what the write-backs leave (the two inputs as entered, the one-entry
    output at its last write-back) and every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Launch 2 is entered with the buffers at this valuation: the host stretch before it has run. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- It is left with the launch's three arrays at what the write-backs leave (the two inputs as entered, the one-entry
    output at its last write-back) and every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch. -/
abbrev W7 : Dev nD → Valuation τ sig (Elt F) := fun c => StableHlo.after hostOps3 (W6 m c)

/-- No host operation and no launch writes `main_arg0`: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- No host operation and no launch writes `main_arg1`: it ends as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- No host operation and no launch writes `main_arg2`: it ends as launched. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- No host operation and no launch writes `main_arg3`: it ends as launched. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- No host operation and no launch writes `main_arg4`: it ends as launched. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

/-- Every launch's proof data, each at the contents its launch is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation, the generator register. -/
abbrev Tₙ (c : Dev nD) : sProp 𝕄 := iprop(StableHlo.held (c : Thread nD τ) (Pipeline.ucRefs τ sig) (W7 m c) ∗ ∃ r, prngReg c r)

/-! ## The launches as segments -/

set_option backward.isDefEq.respectTransparency.types false in
/-- LAUNCH 0 as a segment: entered from every unscoped buffer at `W1`, left at `W2`. Its arrays are split out of the
    unscoped buffers and put back at their exit contents; the generator register goes into the invariant and comes back;
    the accumulator's value is forgotten at the exit; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec0 c ∗ ∃ r, prngReg c r) : sProp 𝕄) ⊢ (dat0 (V1 m) c).Φ 0 := hinΦ0 (V1 m) c
    rw [show (pdats m 0 c).Φ 0 = (dat0 (V1 m) c).Φ 0 from rfl]
    iintro ⟨Hp, -, Hr⟩
    iapply h1
    isplitl [Hr]; · iexact Hr
    iexact Hp
  hout c := by
    rw [Pipeline.ownSems0_none, show (pdats m 0 c).Φ (Fin.last _) = (dat0 (V1 m) c).Φ (Fin.last cfg0.N) from rfl]
    have h2 : (dat0 (V1 m) c).Φ (Fin.last cfg0.N) ⊢ (iprop(Pipeline.scopedRest (Ix := Unit) (Name := ℕ) (U := UR sig nD τ) (Lvl := ℕ) (Val := Elt F) spec0 c ∗ ∃ r, prngReg c r) : sProp 𝕄) := houtΦ0 (V1 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 as a segment: entered from every unscoped buffer at `W3`, left at `W4`. Its arrays are split out of the
    unscoped buffers and put back at their exit contents; the generator register goes into the invariant and comes back;
    the accumulator's value is forgotten at the exit; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec1 c ∗ ∃ r, prngReg c r) : sProp 𝕄) ⊢ (dat1 (V3 m) c).Φ 0 := hinΦ1 (V3 m) c
    rw [show (pdats m 1 c).Φ 0 = (dat1 (V3 m) c).Φ 0 from rfl]
    iintro ⟨Hp, -, Hr⟩
    iapply h1
    isplitl [Hr]; · iexact Hr
    iexact Hp
  hout c := by
    rw [Pipeline.ownSems0_none, show (pdats m 1 c).Φ (Fin.last _) = (dat1 (V3 m) c).Φ (Fin.last cfg1.N) from rfl]
    have h2 : (dat1 (V3 m) c).Φ (Fin.last cfg1.N) ⊢ (iprop(Pipeline.scopedRest (Ix := Unit) (Name := ℕ) (U := UR sig nD τ) (Lvl := ℕ) (Val := Elt F) spec1 c ∗ ∃ r, prngReg c r) : sProp 𝕄) := houtΦ1 (V3 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 as a segment: entered from every unscoped buffer at `W5`, left at `W6`. Its arrays are split out of the
    unscoped buffers and put back at their exit contents; the generator register goes into the invariant and comes back;
    the accumulator's value is forgotten at the exit; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄) ⊢ (dat2 (V5 m) c).Φ 0 := hinΦ2 (V5 m) c
    rw [show (pdats m 2 c).Φ 0 = (dat2 (V5 m) c).Φ 0 from rfl]
    iintro ⟨Hp, -, Hr⟩
    iapply h1
    isplitl [Hr]; · iexact Hr
    iexact Hp
  hout c := by
    rw [Pipeline.ownSems0_none, show (pdats m 2 c).Φ (Fin.last _) = (dat2 (V5 m) c).Φ (Fin.last cfg2.N) from rfl]
    have h2 : (dat2 (V5 m) c).Φ (Fin.last cfg2.N) ⊢ (iprop(Pipeline.scopedRest (Ix := Unit) (Name := ℕ) (U := UR sig nD τ) (Lvl := ℕ) (Val := Elt F) spec2 c ∗ ∃ r, prngReg c r) : sProp 𝕄) := houtΦ2 (V5 m) c
    iintro Hphi
    ihave H := h2 $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state every unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.KernelIdeal.Hand

end
-- ==== Proof.Spec.lean ====
/-
  The function both programs compute, stated once over the extended reals.

  For two vectors x, y of length 8192 the PAIR MEAN is

      ( Σ_i Σ_j ((1 + x_i) − y_j)² ) / 2²⁶ ,

  the mean over the 8192 × 8192 grid of pairs of the squared shifted difference; the result is the
  combination  (λ₀ · mean(a₁, a₀) + λ₁ · mean(a₂, a₃)) + λ₂ · mean(a₃, a₂)  of three such means.
  The constants 1 and 2²⁶ are kept as the words both programs spell them with, so neither is ever evaluated.
-/
import Idealize.ShloMosaic.PureOps.Ideal
import Idealize.ShloMosaic.Lib.ValueIdx

noncomputable section

namespace Cert.Spec

open Idealize.ShloMosaic Idealize.ShloMosaic.ValueIdx

/-- A vector of 8192 extended reals, indexed as the programs index a rank-1 array. -/
abbrev Vec8192 : Type := (⟨1, ![8192]⟩ : Shape).Idx → EReal
/-- The three weights. -/
abbrev Vec3 : Type := (⟨1, ![3]⟩ : Shape).Idx → EReal

/-- The word both programs write for the shift 1. -/
abbrev one : EReal := Ideal.ofBits .f32 0x3F800000#32
/-- The word both programs write for the number of pairs, 8192 · 8192 = 2²⁶. -/
abbrev pairs : EReal := Ideal.ofBits .f32 0x4C800000#32

/-- The squared shifted difference of entry i of x and entry j of y. -/
def sq (x y : Vec8192) (i j : Fin 8192) : EReal :=
  ((one + x (ix1 i)) - y (ix1 j)) * ((one + x (ix1 i)) - y (ix1 j))

/-- The sum of the squared shifted differences over all pairs (i, j). -/
def pairSum (x y : Vec8192) : EReal := ∑ i : Fin 8192, ∑ j : Fin 8192, sq x y i j

/-- Their mean: the sum divided by the number of pairs. -/
def pairMean (x y : Vec8192) : EReal := Ideal.div (pairSum x y) pairs

/-- The weighted combination of the three pair means. -/
def result (a0 a1 a2 a3 : Vec8192) (lam : Vec3) : EReal :=
  (lam (ix1 0) * pairMean a1 a0 + lam (ix1 1) * pairMean a2 a3) + lam (ix1 2) * pairMean a3 a2

end Cert.Spec

end
-- ==== Proof.KTail.lean ====
import proofs.«161244_j22591527977071_2_alg».proof.Proof.Gen.KernelIdeal
import proofs.«161244_j22591527977071_2_alg».proof.Proof.Spec
import Idealize.ShloMosaic.Lib.ValueIdx
import Idealize.ShloMosaic.Lib.ValueLayout
import Idealize.ShloMosaic.Lib.Pipeline.Value
import Idealize.ShloMosaic.PureOps.Ideal.Laws

/-
  The last steps of the kernel program, after its three grid sums are in hand.

  Each grid sum arrives as a 1 × 1 array. It is viewed as a scalar and divided by the pair count 2²⁶: that is a
  pair mean. The three weights are the three entries of the weight vector, each cut out as a one-element vector
  and viewed as a scalar. The result is (λ₀ · m₁ + λ₁ · m₂) + λ₂ · m₃. At the extended reals, read at the scalar
  shape's one index, every step is the arithmetic on the single element involved: a 1 × 1 array or a one-element
  vector viewed as a scalar is its only element, since both sit at row-major position 0.
-/

noncomputable section

namespace Cert.KernelIdeal.HostTail

open Cert.KernelIdeal Cert.KernelIdeal.Gen Idealize.ShloMosaic Idealize.ShloMosaic.ValueIdx

section Terms
variable {F : FTy → Type} [FloatOps F]

/-- A 1 × 1 grid sum viewed as a scalar and divided by the pair count. -/
def meanOf (o : (⟨S1x1, .f32⟩ : BufTy).Contents (Elt F)) : (⟨S_, .f32⟩ : BufTy).Contents (Elt F) :=
  Host.divf (shapeCast S_ o shapeCasts_S1x1_S_) (constant S_ .f32 0x4C800000#32)

/-- The first weight as a scalar. -/
def weight0 (lam : (⟨S3, .f32⟩ : BufTy).Contents (Elt F)) : (⟨S_, .f32⟩ : BufTy).Contents (Elt F) :=
  shapeCast S_ (extractStridedSlice S1 ![0] lam slices_S3_S1_0) shapeCasts_S1_S_

/-- The second weight as a scalar. -/
def weight1 (lam : (⟨S3, .f32⟩ : BufTy).Contents (Elt F)) : (⟨S_, .f32⟩ : BufTy).Contents (Elt F) :=
  shapeCast S_ (extractStridedSlice S1 ![1] lam slices_S3_S1_1) shapeCasts_S1_S_

/-- The third weight as a scalar. -/
def weight2 (lam : (⟨S3, .f32⟩ : BufTy).Contents (Elt F)) : (⟨S_, .f32⟩ : BufTy).Contents (Elt F) :=
  shapeCast S_ (extractStridedSlice S1 ![2] lam slices_S3_S1_2) shapeCasts_S1_S_

/-- The weighted combination (λ₀ · m₁ + λ₁ · m₂) + λ₂ · m₃ of three scalars. -/
def combine (lam : (⟨S3, .f32⟩ : BufTy).Contents (Elt F)) (m1 m2 m3 : (⟨S_, .f32⟩ : BufTy).Contents (Elt F)) :
    (⟨S_, .f32⟩ : BufTy).Contents (Elt F) :=
  addf (addf (mulf (weight0 lam) m1) (mulf (weight1 lam) m2)) (mulf (weight2 lam) m3)

end Terms

/-! ## Views of a single element as a scalar -/

/-- A 1 × 1 array viewed as a scalar is its one element. -/
theorem scalar_of_unit {α : Type} (v : S1x1.Idx → α) (i : S_.Idx) :
    shapeCast S_ v shapeCasts_S1x1_S_ i = v (ix2 (0 : Fin 1) (0 : Fin 1)) :=
  shapeCast_apply v shapeCasts_S1x1_S_ i (ix2 (0 : Fin 1) (0 : Fin 1)) (by
    rw [Shape.rowMajor_val_two]
    exact (Shape.rowMajorPi_zero _ i).symm)

/-- A one-element vector viewed as a scalar is its one element. -/
theorem scalar_of_single {α : Type} (v : S1.Idx → α) (i : S_.Idx) :
    shapeCast S_ v shapeCasts_S1_S_ i = v (ix1 (0 : Fin 1)) :=
  shapeCast_apply v shapeCasts_S1_S_ i (ix1 (0 : Fin 1)) (by
    rw [Shape.rowMajor_val_one]
    exact (Shape.rowMajorPi_zero _ i).symm)

/-! ## The steps at the extended reals -/

/-- The pair mean of a 1 × 1 grid sum is that sum's element divided by the pair count. -/
theorem meanOf_apply (o : (⟨S1x1, .f32⟩ : BufTy).Contents (Elt Ideal)) (i : S_.Idx) :
    meanOf (F := Ideal) o i = Ideal.div (o (ix2 0 0)) Cert.Spec.pairs := by
  show Ideal.div (shapeCast S_ o shapeCasts_S1x1_S_ i) (Ideal.ofBits .f32 0x4C800000#32) = _
  rw [scalar_of_unit]

theorem weight0_apply (lam : (⟨S3, .f32⟩ : BufTy).Contents (Elt Ideal)) (i : S_.Idx) :
    weight0 (F := Ideal) lam i = lam (ix1 0) := by
  unfold weight0
  rw [scalar_of_single]
  exact extractStridedSlice_apply ![0] lam slices_S3_S1_0 _ (ix1 (0 : Fin 3)) (fun a => match a with
    | ⟨0, _⟩ => rfl)

theorem weight1_apply (lam : (⟨S3, .f32⟩ : BufTy).Contents (Elt Ideal)) (i : S_.Idx) :
    weight1 (F := Ideal) lam i = lam (ix1 1) := by
  unfold weight1
  rw [scalar_of_single]
  exact extractStridedSlice_apply ![1] lam slices_S3_S1_1 _ (ix1 (1 : Fin 3)) (fun a => match a with
    | ⟨0, _⟩ => rfl)

theorem weight2_apply (lam : (⟨S3, .f32⟩ : BufTy).Contents (Elt Ideal)) (i : S_.Idx) :
    weight2 (F := Ideal) lam i = lam (ix1 2) := by
  unfold weight2
  rw [scalar_of_single]
  exact extractStridedSlice_apply ![2] lam slices_S3_S1_2 _ (ix1 (2 : Fin 3)) (fun a => match a with
    | ⟨0, _⟩ => rfl)

/-- The combination of the three pair means, read at the scalar shape's one index. -/
theorem combine_apply (lam : (⟨S3, .f32⟩ : BufTy).Contents (Elt Ideal))
    (o2 o7 o12 : (⟨S1x1, .f32⟩ : BufTy).Contents (Elt Ideal)) (i : S_.Idx) :
    combine (F := Ideal) lam (meanOf o2) (meanOf o7) (meanOf o12) i
      = (lam (ix1 0) * Ideal.div (o2 (ix2 0 0)) Cert.Spec.pairs + lam (ix1 1) * Ideal.div (o7 (ix2 0 0)) Cert.Spec.pairs)
        + lam (ix1 2) * Ideal.div (o12 (ix2 0 0)) Cert.Spec.pairs := by
  show (weight0 (F := Ideal) lam i * meanOf (F := Ideal) o2 i + weight1 (F := Ideal) lam i * meanOf (F := Ideal) o7 i)
      + weight2 (F := Ideal) lam i * meanOf (F := Ideal) o12 i = _
  rw [weight0_apply, weight1_apply, weight2_apply, meanOf_apply, meanOf_apply, meanOf_apply]

end Cert.KernelIdeal.HostTail

end
-- ==== Proof.IHost.lean ====
/-
  The host side of the kernel program's value: what the three launches are handed and what @main makes of what they
  leave. Each launch's column operand is one argument vector cast to a column and its row operand another cast to a
  row; each launch's one-entry output is cast to a scalar and divided by the number of pairs; the three quotients are
  combined with the three weights read off the last argument.
-/
import proofs.«161244_j22591527977071_2_alg».proof.Proof.IRun
import proofs.«161244_j22591527977071_2_alg».proof.Proof.KTail

set_option maxRecDepth 16384

noncomputable section

namespace Cert.KernelIdeal.Hand

open Cert.KernelIdeal Cert.KernelIdeal.Gen Cert.KernelIdeal.HostTail
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F]
variable (m : (ℓ : Loc nD τ sig) → Buf (Elt F) ℓ)

/-! ## The arguments, read where the later items read them -/

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## What each launch is handed -/

theorem V1_x (c : Dev nD) : V1 m c main_v0 = shapeCast S8192x1 (m ((c : Thread nD τ).loc main_arg1)) shapeCasts_S8192_S8192x1 := by
  show StableHlo.after hostOps0 (W0 m c) (Proc.devRef .tc main_v0) = _
  after_results; rfl
theorem V1_y (c : Dev nD) : V1 m c main_v1 = shapeCast S1x8192 (m ((c : Thread nD τ).loc main_arg0)) shapeCasts_S8192_S1x8192 := by
  show StableHlo.after hostOps0 (W0 m c) (Proc.devRef .tc main_v1) = _
  after_results; rfl
theorem V3_x (c : Dev nD) : V3 m c main_v5 = shapeCast S8192x1 (m ((c : Thread nD τ).loc main_arg2)) shapeCasts_S8192_S8192x1 := by
  rw [← W2_main_arg2 m c]
  show StableHlo.after hostOps1 (W2 m c) (Proc.devRef .tc main_v5) = _
  after_results; rfl
theorem V3_y (c : Dev nD) : V3 m c main_v6 = shapeCast S1x8192 (m ((c : Thread nD τ).loc main_arg3)) shapeCasts_S8192_S1x8192 := by
  rw [← W2_main_arg3 m c]
  show StableHlo.after hostOps1 (W2 m c) (Proc.devRef .tc main_v6) = _
  after_results; rfl
theorem V5_x (c : Dev nD) : V5 m c main_v10 = shapeCast S8192x1 (m ((c : Thread nD τ).loc main_arg3)) shapeCasts_S8192_S8192x1 := by
  rw [← W4_main_arg3 m c]
  show StableHlo.after hostOps2 (W4 m c) (Proc.devRef .tc main_v10) = _
  after_results; rfl
theorem V5_y (c : Dev nD) : V5 m c main_v11 = shapeCast S1x8192 (m ((c : Thread nD τ).loc main_arg2)) shapeCasts_S8192_S1x8192 := by
  rw [← W4_main_arg2 m c]
  show StableHlo.after hostOps2 (W4 m c) (Proc.devRef .tc main_v11) = _
  after_results; rfl

/-! ## What @main makes of what the launches leave -/

/-- The first launch's mean, where the last stretch reads it. -/
theorem W6_v4 (c : Dev nD) : W6 m c (Proc.devRef .tc main_v4) = meanOf ((dat0 (V1 m) c).arrAt 2 cfg0.N) :=
  calc W6 m c (Proc.devRef .tc main_v4)
    _ = W5 m c (Proc.devRef .tc main_v4) := W6_of_ne m c main_v4 (by decide)
    _ = W4 m c (Proc.devRef .tc main_v4) := StableHlo.after_of_writes_sub hostOps2 _ hostOps2_writes (by decide)
    _ = W3 m c (Proc.devRef .tc main_v4) := W4_of_ne m c main_v4 (by decide)
    _ = meanOf (W2 m c (Proc.devRef .tc main_v2)) := by
      show StableHlo.after hostOps1 (W2 m c) (Proc.devRef .tc main_v4) = _
      after_results; rfl
    _ = meanOf ((dat0 (V1 m) c).arrAt 2 cfg0.N) := congrArg meanOf (W2_arr m c 2)

/-- The second launch's mean. -/
theorem W6_v9 (c : Dev nD) : W6 m c (Proc.devRef .tc main_v9) = meanOf ((dat1 (V3 m) c).arrAt 2 cfg1.N) :=
  calc W6 m c (Proc.devRef .tc main_v9)
    _ = W5 m c (Proc.devRef .tc main_v9) := W6_of_ne m c main_v9 (by decide)
    _ = meanOf (W4 m c (Proc.devRef .tc main_v7)) := by
      show StableHlo.after hostOps2 (W4 m c) (Proc.devRef .tc main_v9) = _
      after_results; rfl
    _ = meanOf ((dat1 (V3 m) c).arrAt 2 cfg1.N) := congrArg meanOf (W4_arr m c 2)

/-- The result: the three means combined with the three weights. -/
theorem W7_v25 (c : Dev nD) : W7 m c (Proc.devRef .tc main_v25)
    = combine (m ((c : Thread nD τ).loc main_arg4)) (meanOf ((dat0 (V1 m) c).arrAt 2 cfg0.N)) (meanOf ((dat1 (V3 m) c).arrAt 2 cfg1.N))
        (meanOf ((dat2 (V5 m) c).arrAt 2 cfg2.N)) := by
  rw [← W6_main_arg4 m c, ← W6_v4 m c, ← W6_v9 m c, ← W6_arr m c 2]
  show StableHlo.after hostOps3 (W6 m c) (Proc.devRef .tc main_v25) = _
  after_results; rfl

end Cert.KernelIdeal.Hand

end
-- ==== Proof.IPieces.lean ====
/-
  What one run of the kernel's body leaves behind, as a value.

  At each of the 32 grid points the body adds one tile's sum of squared shifted differences to a one-entry accumulator.
  A run is in one of three cases. At the first point it clears the accumulator, reads it back and stores the cleared
  value plus the tile's sum. At a middle point it reads the accumulator, found at what the point before left, and
  stores that plus the tile's sum. At the last point it does the same and then copies the accumulator into the
  one-entry output block. In every case what is left is one function of the tile's column block, the row block and
  the value the accumulator was read at: the tile payload `k_pay2`, at the cleared value `k_pay1` in the first case.

  Each store writes the whole one-entry buffer at offsets zero, so the last store's payload is what the buffer holds,
  and each load reads a whole buffer at offsets zero, so it reads the buffer's contents. The three pair sums run the
  same body; the statements are repeated for each.
-/
import proofs.«161244_j22591527977071_2_alg».proof.Proof.IR0Frame
import proofs.«161244_j22591527977071_2_alg».proof.Proof.IR1Frame
import proofs.«161244_j22591527977071_2_alg».proof.Proof.IR2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Offsets `[0, 0]` are zero on both axes. -/
theorem hz2 : (![0, 0] : Fin 2 → Nat) = fun _ => 0 := funext fun a => by fin_cases a <;> rfl

/-! ## The first pair sum -/

/-- FIRST POINT: the accumulator is cleared, read back, and left at the cleared value plus the tile's sum. -/
theorem sout0_A_0_eq (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S256x1 .f32) (x1 : Vec F S1x8192 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, View.ld_unit_zero (S := S256x1) hz2,
    View.ld_unit_zero (S := S1x8192) hz2]

/-- MIDDLE POINT: the accumulator, found at `xs0`, is left at `xs0` plus the tile's sum. -/
theorem sout0_B_0_eq (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S256x1 .f32) (x1 : Vec F S1x8192 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- LAST POINT: the accumulator, found at `xs0`, is left at `xs0` plus the tile's sum … -/
theorem sout0_C_0_eq (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- … and the output block is left at a copy of it. -/
theorem out0_C_2_eq (c : Dev nD) (i : grid0.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S256x1 .f32) (x1 : Vec F S1x8192 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x1) hz2, View.readCov_unit_zero (S := S1x1) _ hz2]
  simp only [View.readAt_eq_ld, harg1.read_unread, harg2.read_unread, harg4.read_unread,
    View.ld_unit_zero (S := S256x1) hz2, View.ld_unit_zero (S := S1x8192) hz2, View.ld_unit_zero (S := S1x1) hz2]

/-! ## The second pair sum -/

/-- FIRST POINT: the accumulator is cleared, read back, and left at the cleared value plus the tile's sum. -/
theorem sout1_A_0_eq (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S256x1 .f32) (x1 : Vec F S1x8192 .f32) :
    sout1_A_0 c i arg1 harg1 arg2 harg2 arg3 harg3 arg4 harg4 hc0 hc1 x0 x1 = k1_pay2 x0 x1 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S1x1) hz2, View.readCov_unit_zero (S := S1x1) _ hz2]
  simp only [View.readAt_eq_ld, harg1.read_unread, harg2.read_unread, View.ld_unit_zero (S := S256x1) hz2,
    View.ld_unit_zero (S := S1x8192) hz2]

/-- MIDDLE POINT: the accumulator, found at `xs0`, is left at `xs0` plus the tile's sum. -/
theorem sout1_B_0_eq (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S256x1 .f32) (x1 : Vec F S1x8192 .f32) (xs0 : Vec F S1x1 .f32) :
    sout1_B_0 c i arg1 harg1 arg2 harg2 arg3 harg3 arg4 harg4 hc0 hc1 x0 x1 xs0 = k1_pay2 x0 x1 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- LAST POINT: the accumulator, found at `xs0`, is left at `xs0` plus the tile's sum … -/
theorem sout1_C_0_eq (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) :
    sout1_C_0 c i arg1 harg1 arg2 harg2 arg3 harg3 arg4 harg4 hc0 hc1 x0 x1 xs0 = k1_pay2 x0 x1 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- … and the output block is left at a copy of it. -/
theorem out1_C_2_eq (c : Dev nD) (i : grid1.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S256x1 .f32) (x1 : Vec F S1x8192 .f32) (xs0 : Vec F S1x1 .f32) :
    out1_C_2 c i arg1 harg1 arg2 harg2 arg3 harg3 arg4 harg4 hc0 hc1 x0 x1 xs0 = k1_pay2 x0 x1 xs0 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero (S := S1x1) hz2, View.readCov_unit_zero (S := S1x1) _ hz2]
  simp only [View.readAt_eq_ld, harg1.read_unread, harg2.read_unread, harg4.read_unread,
    View.ld_unit_zero (S := S256x1) hz2, View.ld_unit_zero (S := S1x8192) hz2, View.ld_unit_zero (S := S1x1) hz2]

/-! ## The third pair sum -/

/-- FIRST POINT: the accumulator is cleared, read back, and left at the cleared value plus the tile's sum. -/
theorem sout2_A_0_eq (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S256x1 .f32) (x1 : Vec F S1x8192 .f32) :
    sout2_A_0 c i arg1 harg1 arg2 harg2 arg3 harg3 arg4 harg4 hc0 hc1 x0 x1 = k2_pay2 x0 x1 (k2_pay1 (F := F)) := by
  unfold sout2_A_0
  rw [View.read_writes_eq_canon _ _ _ (scover2_A_0 c i arg1 harg1 arg2 harg2 arg3 harg3 arg4 harg4 hc0 hc1 x0 x1)]
  unfold kernelRun2_A
  dsimp only
  sl_unfold_words
  rw [View.canon_cons_unit_zero (S := S1x1) hz2, View.readCov_unit_zero (S := S1x1) _ hz2]
  simp only [View.readAt_eq_ld, harg1.read_unread, harg2.read_unread, View.ld_unit_zero (S := S256x1) hz2,
    View.ld_unit_zero (S := S1x8192) hz2]

/-- MIDDLE POINT: the accumulator, found at `xs0`, is left at `xs0` plus the tile's sum. -/
theorem sout2_B_0_eq (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S256x1 .f32) (x1 : Vec F S1x8192 .f32) (xs0 : Vec F S1x1 .f32) :
    sout2_B_0 c i arg1 harg1 arg2 harg2 arg3 harg3 arg4 harg4 hc0 hc1 x0 x1 xs0 = k2_pay2 x0 x1 xs0 := by
  unfold sout2_B_0
  rw [View.read_writes_eq_canon _ _ _ (scover2_B_0 c i arg1 harg1 arg2 harg2 arg3 harg3 arg4 harg4 hc0 hc1 x0 x1 xs0)]
  unfold kernelRun2_B
  dsimp only
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- LAST POINT: the accumulator, found at `xs0`, is left at `xs0` plus the tile's sum … -/
theorem sout2_C_0_eq (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) :
    sout2_C_0 c i arg1 harg1 arg2 harg2 arg3 harg3 arg4 harg4 hc0 hc1 x0 x1 xs0 = k2_pay2 x0 x1 xs0 := by
  unfold sout2_C_0
  rw [View.read_writes_eq_canon _ _ _ (scover2_C_0 c i arg1 harg1 arg2 harg2 arg3 harg3 arg4 harg4 hc0 hc1 x0 x1 xs0)]
  unfold kernelRun2_C
  dsimp only
  sl_unfold_words
  rw [View.canon_unit_zero (S := S1x1) hz2]
  simp only [View.readAt_eq_ld, harg1.read_unread, harg2.read_unread, harg4.read_unread,
    View.ld_unit_zero (S := S256x1) hz2, View.ld_unit_zero (S := S1x8192) hz2, View.ld_unit_zero (S := S1x1) hz2]

/-- … and the output block is left at a copy of it. -/
theorem out2_C_2_eq (c : Dev nD) (i : grid2.Coords) (arg1 : Memref sig .tc .vmem S256x1 .f32) (harg1 : arg1.IsWhole) (arg2 : Memref sig .tc .vmem S1x8192 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S256x1 .f32) (x1 : Vec F S1x8192 .f32) (xs0 : Vec F S1x1 .f32) :
    out2_C_2 c i arg1 harg1 arg2 harg2 arg3 harg3 arg4 harg4 hc0 hc1 x0 x1 xs0 = k2_pay2 x0 x1 xs0 := by
  unfold out2_C_2
  rw [View.read_writes_eq_canon _ _ _ (cover2_C_2 c i arg1 harg1 arg2 harg2 arg3 harg3 arg4 harg4 hc0 hc1 x0 x1 xs0)]
  unfold kernelRun2_C
  dsimp only
  sl_unfold_words
  rw [View.canon_unit_zero (S := S1x1) hz2, View.readCov_unit_zero (S := S1x1) _ hz2]
  simp only [View.readAt_eq_ld, harg1.read_unread, harg2.read_unread, harg4.read_unread,
    View.ld_unit_zero (S := S256x1) hz2, View.ld_unit_zero (S := S1x8192) hz2, View.ld_unit_zero (S := S1x1) hz2]

end Cert.KernelIdeal.Hand

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColSum.lean ====
/-
  The sum of an `[a, b]` array along its FIRST axis, read at an index, on the extended reals: at entry `c` it is the
  sum over `r` of the array's entries `(r, c)`, the sum of column `c`.
-/
import Idealize.ShloMosaic.Lib.Pipeline.Value
import Idealize.ShloMosaic.Lib.ValueIdx
import Idealize.ShloMosaic.PureOps.Ideal.Laws

noncomputable section

namespace Cert.LibColSum

open Idealize.ShloMosaic Idealize.ShloMosaic.ValueIdx

/-- A sum along the FIRST axis of an `[a, b]` array, read at entry `c`: the sum over `r` of the entries `(r, c)`, the
    sum of column `c`.  The index the reduction puts back at the summed axis, beside the kept coordinate `c`, is
    `(r, c)`. -/
theorem colSum_apply {a b : ℕ} (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = FKind.add.neutral .f32 hφ) (c : Fin b) :
    multiReduction .add [(0 : Fin 2)] ⟨1, ![b]⟩ src 0x00000000#32 h hφ hacc (ix1 c) = ∑ r : Fin a, src (ix2 r c) :=
  (Ideal.multiReduction_add_single src 0x00000000#32 h hφ hacc (ix1 c)).trans
    (Finset.sum_congr rfl fun r _ => congrArg src (funext fun x => Fin.ext (by
      match x with
      | ⟨0, _⟩ => rfl
      | ⟨1, _⟩ => rfl)))

end Cert.LibColSum

end
-- ==== Proof.TileValue.lean ====
/-
  One tile of the pair sum, read at its one index.

  A tile takes a column x of 256 entries and a row y of 8192 entries and adds, to the number it already holds, the sum
  over the 256 x 8192 grid of the squared shifted differences ((1 + x_p) - y_j)^2: the column is shifted by 1 and
  spread along the rows, the row is spread along the columns, their difference is squared, each row of the grid is
  summed, and the 256 row sums are summed.  Both sums start from the zero word, which adds nothing.  Before the first
  tile the held number is set to the zero word, which reads 0.
-/
import proofs.«161244_j22591527977071_2_alg».proof.Proof.Gen.KernelIdeal.Skeleton
import proofs.«161244_j22591527977071_2_alg».proof.Proof.Spec
import proofs.«161244_j22591527977071_2_alg».proof.Proof.LibUnitColumn
import proofs.«161244_j22591527977071_2_alg».proof.Proof.LibRowOps
import proofs.«161244_j22591527977071_2_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

namespace Cert.TileValue

open Cert.KernelIdeal Cert.KernelIdeal.Gen Idealize.ShloMosaic Idealize.ShloMosaic.ValueIdx

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable [Cert.KernelIdeal.Facts]

/-- The sum, over the 256 x 8192 grid of a tile, of the squared shifted differences of the column's and the row's entries. -/
def tileSum (x : Vec Ideal S256x1 .f32) (y : Vec Ideal S1x8192 .f32) : EReal :=
  ∑ p : Fin 256, ∑ j : Fin 8192,
    ((Cert.Spec.one + x (ix2 p 0)) - y (ix2 0 j)) * ((Cert.Spec.one + x (ix2 p 0)) - y (ix2 0 j))

/-- Every index of a `[1, 1]` array is `(0, 0)`. -/
theorem idx11 (i : S1x1.Idx) : i = ix2 (0 : Fin 1) (0 : Fin 1) := by
  funext a
  match a with
  | ⟨0, _⟩ => exact Subsingleton.elim (α := Fin 1) _ _
  | ⟨1, _⟩ => exact Subsingleton.elim (α := Fin 1) _ _

/-- The number held before the first tile is the zero word spread over the `[1, 1]` array: it reads 0. -/
theorem pay1_apply0 (i : S1x1.Idx) : k0_pay1 (F := Ideal) i = 0 := by
  unfold k0_pay1
  rw [shapeCast_self]
  exact Ideal.ofBits_zero_f32

/-- A tile adds, to the number it holds, the sum of the squared shifted differences over its grid. -/
theorem pay2_apply0 (x : Vec Ideal S256x1 .f32) (y : Vec Ideal S1x8192 .f32) (acc : Vec Ideal S1x1 .f32)
    (i : S1x1.Idx) : k0_pay2 (F := Ideal) x y acc i = acc i + tileSum x y := by
  rw [idx11 i]
  unfold k0_pay2
  simp only [shapeCast_self]
  rw [addf_apply]
  congr 1
  -- the cast to [1, 1] of the sum of the 256 row sums
  refine (Cert.LibUnitColumn.shapeCast_a_a1_apply _ _ (0 : Fin 1) (0 : Fin 1)).trans ?_
  refine (Cert.LibColSum.colSum_apply _ _ _ _ (0 : Fin 1)).trans ?_
  unfold tileSum
  refine Finset.sum_congr rfl fun p _ => ?_
  -- row p: the cast to [256, 1] of the row sums
  refine (Cert.LibUnitColumn.shapeCast_a_a1_apply _ _ p (0 : Fin 1)).trans ?_
  refine (Cert.LibRowOps.rowSum_apply _ _ _ _ p).trans ?_
  refine Finset.sum_congr rfl fun j _ => ?_
  -- entry (p, j) of the grid
  rw [mulf_apply, subf_apply, broadcastTo_a1_ab_apply, broadcastTo_1b_ab_apply, addf_apply]
  rfl

/-- For the second of the three pair means the held number starts from the same zero word. -/
theorem pay1_apply1 (i : S1x1.Idx) : k1_pay1 (F := Ideal) i = 0 := pay1_apply0 i

/-- And for the third. -/
theorem pay1_apply2 (i : S1x1.Idx) : k2_pay1 (F := Ideal) i = 0 := pay1_apply0 i

/-- For the second pair mean a tile is the same function of the column, the row and the held number. -/
theorem pay2_apply1 (x : Vec Ideal S256x1 .f32) (y : Vec Ideal S1x8192 .f32) (acc : Vec Ideal S1x1 .f32)
    (i : S1x1.Idx) : k1_pay2 (F := Ideal) x y acc i = acc i + tileSum x y := pay2_apply0 x y acc i

/-- And for the third. -/
theorem pay2_apply2 (x : Vec Ideal S256x1 .f32) (y : Vec Ideal S1x8192 .f32) (acc : Vec Ideal S1x1 .f32)
    (i : S1x1.Idx) : k2_pay2 (F := Ideal) x y acc i = acc i + tileSum x y := pay2_apply0 x y acc i

end Cert.TileValue

end
-- ==== Proof.IAccum.lean ====
/-
  The accumulator's recursion over the grid points, at its one entry.

  The accumulator is a one-entry array. After the first point it holds 0 plus the first tile's sum of squared shifted
  differences; after each later point it holds what the point before left plus that point's tile sum; and at the last
  point (point 31) the one-entry output block is left at a copy of it. So after the last point the output holds
  0 + T_0 + T_1 + … + T_31, the tile sums added in point order. The three pair sums run the same body; the statements
  are repeated for each.
-/
import proofs.«161244_j22591527977071_2_alg».proof.Proof.IPieces
import proofs.«161244_j22591527977071_2_alg».proof.Proof.TileValue

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The first pair sum -/

/-- After the first point the accumulator holds the cleared value, 0, plus the first tile's sum. -/
theorem acc0_zero (c : Dev nD) (h : 0 < cfg0.N) :
    (outsAt0 V c 0 h).2 (ix2 0 0)
      = 0 + Cert.TileValue.tileSum (iblk0 V c 0 ⟨0, h⟩) (iblk0 V c 1 ⟨0, h⟩) := by
  have e := outsAt0_A V c ⟨0, h⟩ rfl (by show ¬((0 : ℕ) = 31); omega)
  refine (congrFun (congrArg Prod.snd e) (ix2 0 0)).trans ?_
  dsimp only
  rw [sout0_A_0_eq, Cert.TileValue.pay2_apply0, Cert.TileValue.pay1_apply0]

/-- After a later point it holds what the point before left plus this point's tile sum: at a middle point and at the
    last point alike. -/
theorem acc0_succ (c : Dev nD) (n : ℕ) (hn : n + 1 < cfg0.N) :
    (outsAt0 V c (n + 1) hn).2 (ix2 0 0)
      = (outsAt0 V c n (Nat.lt_of_succ_lt hn)).2 (ix2 0 0)
        + Cert.TileValue.tileSum (iblk0 V c 0 ⟨n + 1, hn⟩) (iblk0 V c 1 ⟨n + 1, hn⟩) := by
  by_cases h1 : n + 1 = 31
  · have e := outsAt0_C V c ⟨n + 1, hn⟩ (Nat.succ_ne_zero n) h1
    refine (congrFun (congrArg Prod.snd e) (ix2 0 0)).trans ?_
    dsimp only
    rw [sout0_C_0_eq, Cert.TileValue.pay2_apply0]
    rfl
  · have e := outsAt0_B V c ⟨n + 1, hn⟩ (Nat.succ_ne_zero n) h1
    refine (congrFun (congrArg Prod.snd e) (ix2 0 0)).trans ?_
    dsimp only
    rw [sout0_B_0_eq, Cert.TileValue.pay2_apply0]
    rfl

/-- At the last point the output block is left at a copy of the accumulator. -/
theorem out0_last (c : Dev nD) (h : 31 < cfg0.N) :
    (outsAt0 V c 31 h).1 (ix2 0 0) = (outsAt0 V c 31 h).2 (ix2 0 0) := by
  have e := outsAt0_C V c ⟨31, h⟩ (by show ¬((31 : ℕ) = 0); omega) rfl
  have e1 := congrFun (congrArg Prod.fst e) (ix2 0 0)
  have e2 := congrFun (congrArg Prod.snd e) (ix2 0 0)
  dsimp only at e1 e2
  rw [out0_C_2_eq] at e1
  rw [sout0_C_0_eq] at e2
  exact e1.trans e2.symm

/-! ## The second pair sum -/

/-- After the first point the accumulator holds the cleared value, 0, plus the first tile's sum. -/
theorem acc1_zero (c : Dev nD) (h : 0 < cfg1.N) :
    (outsAt1 V c 0 h).2 (ix2 0 0)
      = 0 + Cert.TileValue.tileSum (iblk1 V c 0 ⟨0, h⟩) (iblk1 V c 1 ⟨0, h⟩) := by
  have e := outsAt1_A V c ⟨0, h⟩ rfl (by show ¬((0 : ℕ) = 31); omega)
  refine (congrFun (congrArg Prod.snd e) (ix2 0 0)).trans ?_
  dsimp only
  rw [sout1_A_0_eq, Cert.TileValue.pay2_apply1, Cert.TileValue.pay1_apply1]

/-- After a later point it holds what the point before left plus this point's tile sum: at a middle point and at the
    last point alike. -/
theorem acc1_succ (c : Dev nD) (n : ℕ) (hn : n + 1 < cfg1.N) :
    (outsAt1 V c (n + 1) hn).2 (ix2 0 0)
      = (outsAt1 V c n (Nat.lt_of_succ_lt hn)).2 (ix2 0 0)
        + Cert.TileValue.tileSum (iblk1 V c 0 ⟨n + 1, hn⟩) (iblk1 V c 1 ⟨n + 1, hn⟩) := by
  by_cases h1 : n + 1 = 31
  · have e := outsAt1_C V c ⟨n + 1, hn⟩ (Nat.succ_ne_zero n) h1
    refine (congrFun (congrArg Prod.snd e) (ix2 0 0)).trans ?_
    dsimp only
    rw [sout1_C_0_eq, Cert.TileValue.pay2_apply1]
    rfl
  · have e := outsAt1_B V c ⟨n + 1, hn⟩ (Nat.succ_ne_zero n) h1
    refine (congrFun (congrArg Prod.snd e) (ix2 0 0)).trans ?_
    dsimp only
    rw [sout1_B_0_eq, Cert.TileValue.pay2_apply1]
    rfl

/-- At the last point the output block is left at a copy of the accumulator. -/
theorem out1_last (c : Dev nD) (h : 31 < cfg1.N) :
    (outsAt1 V c 31 h).1 (ix2 0 0) = (outsAt1 V c 31 h).2 (ix2 0 0) := by
  have e := outsAt1_C V c ⟨31, h⟩ (by show ¬((31 : ℕ) = 0); omega) rfl
  have e1 := congrFun (congrArg Prod.fst e) (ix2 0 0)
  have e2 := congrFun (congrArg Prod.snd e) (ix2 0 0)
  dsimp only at e1 e2
  rw [out1_C_2_eq] at e1
  rw [sout1_C_0_eq] at e2
  exact e1.trans e2.symm

/-! ## The third pair sum -/

/-- After the first point the accumulator holds the cleared value, 0, plus the first tile's sum. -/
theorem acc2_zero (c : Dev nD) (h : 0 < cfg2.N) :
    (outsAt2 V c 0 h).2 (ix2 0 0)
      = 0 + Cert.TileValue.tileSum (iblk2 V c 0 ⟨0, h⟩) (iblk2 V c 1 ⟨0, h⟩) := by
  have e := outsAt2_A V c ⟨0, h⟩ rfl (by show ¬((0 : ℕ) = 31); omega)
  refine (congrFun (congrArg Prod.snd e) (ix2 0 0)).trans ?_
  dsimp only
  rw [sout2_A_0_eq, Cert.TileValue.pay2_apply2, Cert.TileValue.pay1_apply2]

/-- After a later point it holds what the point before left plus this point's tile sum: at a middle point and at the
    last point alike. -/
theorem acc2_succ (c : Dev nD) (n : ℕ) (hn : n + 1 < cfg2.N) :
    (outsAt2 V c (n + 1) hn).2 (ix2 0 0)
      = (outsAt2 V c n (Nat.lt_of_succ_lt hn)).2 (ix2 0 0)
        + Cert.TileValue.tileSum (iblk2 V c 0 ⟨n + 1, hn⟩) (iblk2 V c 1 ⟨n + 1, hn⟩) := by
  by_cases h1 : n + 1 = 31
  · have e := outsAt2_C V c ⟨n + 1, hn⟩ (Nat.succ_ne_zero n) h1
    refine (congrFun (congrArg Prod.snd e) (ix2 0 0)).trans ?_
    dsimp only
    rw [sout2_C_0_eq, Cert.TileValue.pay2_apply2]
    rfl
  · have e := outsAt2_B V c ⟨n + 1, hn⟩ (Nat.succ_ne_zero n) h1
    refine (congrFun (congrArg Prod.snd e) (ix2 0 0)).trans ?_
    dsimp only
    rw [sout2_B_0_eq, Cert.TileValue.pay2_apply2]
    rfl

/-- At the last point the output block is left at a copy of the accumulator. -/
theorem out2_last (c : Dev nD) (h : 31 < cfg2.N) :
    (outsAt2 V c 31 h).1 (ix2 0 0) = (outsAt2 V c 31 h).2 (ix2 0 0) := by
  have e := outsAt2_C V c ⟨31, h⟩ (by show ¬((31 : ℕ) = 0); omega) rfl
  have e1 := congrFun (congrArg Prod.fst e) (ix2 0 0)
  have e2 := congrFun (congrArg Prod.snd e) (ix2 0 0)
  dsimp only at e1 e2
  rw [out2_C_2_eq] at e1
  rw [sout2_C_0_eq] at e2
  exact e1.trans e2.symm

end Cert.KernelIdeal.Hand

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.SumAssembly.lean ====
import proofs.«161244_j22591527977071_2_alg».proof.Proof.Spec
import proofs.«161244_j22591527977071_2_alg».proof.Proof.LibRangeRuns
import Idealize.ShloMosaic.Lib.ValueIdx
import Mathlib.Algebra.BigOperators.Fin

/-
  An accumulator that adds 32 tile sums, one after the other, holds the sum over all pairs.

  The 8192 rows are walked in 32 consecutive tiles of 256 rows. Tile t contributes
  T_t = Σ_{p < 256} Σ_j sq(256·t + p, j). The accumulator starts as 0 + T_0 and then adds T_1, …, T_31, so after the
  last step it is Σ_{t < 32} T_t. Writing R_n = Σ_j sq(n, j) for the sum along row n, this is
  Σ_{t < 32} Σ_{p < 256} R_{256·t + p}, and 32 consecutive runs of length 256 are exactly the first 8192 naturals:
  the total is Σ_{n < 8192} R_n, the sum over all pairs. Only 0 + x = x and the commutative-monoid laws of finite
  sums are used, so nothing is asked of the entries.
-/

noncomputable section

open scoped BigOperators

namespace Cert.SumAssembly

open Idealize.ShloMosaic Idealize.ShloMosaic.ValueIdx

/-- The sum along row `n` of the squared shifted differences, and `0` for `n` past the last row. -/
def rowSum (xv yv : Cert.Spec.Vec8192) (n : ℕ) : EReal :=
  if h : n < 8192 then ∑ j : Fin 8192, Cert.Spec.sq xv yv ⟨n, h⟩ j else 0

theorem rowSum_of_lt (xv yv : Cert.Spec.Vec8192) {n : ℕ} (h : n < 8192) :
    rowSum xv yv n = ∑ j : Fin 8192, Cert.Spec.sq xv yv ⟨n, h⟩ j := dif_pos h

/-- An accumulator started at `0 + T 0` that adds `T 1`, `T 2`, … holds, after step `n`, the sum of `T` up to `n`. -/
theorem acc_eq_sum_range (N : ℕ) (T A : ℕ → EReal) (h0 : A 0 = 0 + T 0)
    (hs : ∀ n, n + 1 < N → A (n + 1) = A n + T (n + 1)) :
    ∀ n, n < N → A n = ∑ s ∈ Finset.range (n + 1), T s := by
  intro n
  induction n with
  | zero => intro _; rw [h0, zero_add, Finset.sum_range_one]
  | succ n ih =>
    intro h
    rw [hs n h, ih (by omega), Finset.sum_range_succ T (n + 1)]

/-- The sum of the row sums over the first 8192 naturals is the sum over all pairs. -/
theorem sum_rowSum (xv yv : Cert.Spec.Vec8192) :
    ∑ n ∈ Finset.range 8192, rowSum xv yv n = Cert.Spec.pairSum xv yv := by
  unfold Cert.Spec.pairSum
  rw [← Fin.sum_univ_eq_sum_range (rowSum xv yv) 8192]
  exact Finset.sum_congr rfl fun i _ => rowSum_of_lt xv yv i.isLt

/-- After its last step the accumulator over the 32 tiles of 256 rows holds the sum over all pairs. -/
theorem acc_total (xv yv : Cert.Spec.Vec8192)
    (T : ℕ → EReal)
    (hT : ∀ t : Fin 32, T t.val = ∑ p : Fin 256, ∑ j : Fin 8192, Cert.Spec.sq xv yv ⟨256 * t.val + p.val, by omega⟩ j)
    (A : ℕ → EReal) (h0 : A 0 = 0 + T 0) (hs : ∀ n, n + 1 < 32 → A (n + 1) = A n + T (n + 1)) :
    A 31 = Cert.Spec.pairSum xv yv := by
  have hTG : ∀ s ∈ Finset.range 32, T s = ∑ p : Fin 256, rowSum xv yv (256 * s + p.val) := by
    intro s hs'
    have hlt : s < 32 := Finset.mem_range.mp hs'
    refine (hT ⟨s, hlt⟩).trans (Finset.sum_congr rfl fun p _ => ?_)
    have hp : p.val < 256 := p.isLt
    rw [rowSum_of_lt xv yv (show 256 * s + p.val < 8192 by omega)]
  have e : (32 * 256 : ℕ) = 8192 := by norm_num
  rw [acc_eq_sum_range 32 T A h0 hs 31 (by omega), Finset.sum_congr rfl hTG,
    Cert.LibRangeRuns.sum_range_runs_fin 32 256 (rowSum xv yv), e]
  exact sum_rowSum xv yv

end Cert.SumAssembly

end
-- ==== Proof.ITotal.lean ====
/-
  The output entry of each pair sum is the sum over all pairs.

  The 8192 entries of the first vector are walked in 32 consecutive tiles of 256; at point t the column window's block
  holds entries 256 t, …, 256 t + 255 and the row window's block holds the whole second vector. The accumulator's
  entry starts as 0 plus the first tile's sum and adds one tile's sum per point, and the last point copies it into the
  output entry. Tile t's sum is the sum over p < 256 and over j of the squared shifted difference of entries
  256 t + p and j, so the 32 tile sums add up to the sum over all 8192 x 8192 pairs. What the two windows' blocks hold
  is taken as a hypothesis here.
-/
import proofs.«161244_j22591527977071_2_alg».proof.Proof.IAccum
import proofs.«161244_j22591527977071_2_alg».proof.Proof.SumAssembly

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The first pair sum -/

/-- If the column window's block at point `t` holds entries `256 t … 256 t + 255` of `xv` and the row window's block
    holds all of `yv`, then after the last point the output entry is the sum over all pairs of the squared shifted
    differences of `xv` and `yv`. -/
theorem total0 (c : Dev nD) (xv yv : Cert.Spec.Vec8192)
    (hx : ∀ (t : Fin cfg0.N) (p : Fin 256) (hi : 256 * t.val + p.val < 8192),
      (iblk0 V c 0 t : Vec Ideal S256x1 .f32) (ix2 p 0) = xv (ix1 ⟨256 * t.val + p.val, hi⟩))
    (hy : ∀ (t : Fin cfg0.N) (j : Fin 8192), (iblk0 V c 1 t : Vec Ideal S1x8192 .f32) (ix2 0 j) = yv (ix1 j))
    (h : 31 < cfg0.N) :
    (outsAt0 V c 31 h).1 (ix2 0 0) = Cert.Spec.pairSum xv yv := by
  have hN : cfg0.N = 32 := N_0
  -- the tile sums and the accumulator's entry as sequences over all naturals, 0 past the grid
  let T : ℕ → EReal := fun n =>
    if hn : n < cfg0.N then Cert.TileValue.tileSum (iblk0 V c 0 ⟨n, hn⟩) (iblk0 V c 1 ⟨n, hn⟩) else 0
  let A : ℕ → EReal := fun n => if hn : n < cfg0.N then (outsAt0 V c n hn).2 (ix2 0 0) else 0
  have hT' : ∀ (n : ℕ) (hn : n < cfg0.N),
      T n = Cert.TileValue.tileSum (iblk0 V c 0 ⟨n, hn⟩) (iblk0 V c 1 ⟨n, hn⟩) := fun n hn => dif_pos hn
  have hA' : ∀ (n : ℕ) (hn : n < cfg0.N), A n = (outsAt0 V c n hn).2 (ix2 0 0) := fun n hn => dif_pos hn
  have key : A 31 = Cert.Spec.pairSum xv yv := by
    refine Cert.SumAssembly.acc_total xv yv T (fun t => ?_) A ?_ (fun n hn => ?_)
    · -- tile t's sum, entry by entry
      have ht : t.val < cfg0.N := lt_of_lt_of_eq t.isLt hN.symm
      rw [hT' t.val ht]
      unfold Cert.TileValue.tileSum Cert.Spec.sq
      refine Finset.sum_congr rfl fun p _ => Finset.sum_congr rfl fun j _ => ?_
      have hp : p.val < 256 := p.isLt
      have ht32 : t.val < 32 := t.isLt
      have e1 := hx ⟨t.val, ht⟩ p (by show 256 * t.val + p.val < 8192; omega)
      have e2 := hy ⟨t.val, ht⟩ j
      rw [e1, e2]
    · rw [hA' 0 (lt_of_lt_of_eq (by omega) hN.symm), hT' 0 (lt_of_lt_of_eq (by omega) hN.symm)]
      exact acc0_zero V c _
    · have h1 : n + 1 < cfg0.N := lt_of_lt_of_eq hn hN.symm
      rw [hA' (n + 1) h1, hA' n (Nat.lt_of_succ_lt h1), hT' (n + 1) h1]
      exact acc0_succ V c n h1
  rw [out0_last V c h, ← hA' 31 h]
  exact key

/-! ## The second pair sum -/

/-- If the column window's block at point `t` holds entries `256 t … 256 t + 255` of `xv` and the row window's block
    holds all of `yv`, then after the last point the output entry is the sum over all pairs of the squared shifted
    differences of `xv` and `yv`. -/
theorem total1 (c : Dev nD) (xv yv : Cert.Spec.Vec8192)
    (hx : ∀ (t : Fin cfg1.N) (p : Fin 256) (hi : 256 * t.val + p.val < 8192),
      (iblk1 V c 0 t : Vec Ideal S256x1 .f32) (ix2 p 0) = xv (ix1 ⟨256 * t.val + p.val, hi⟩))
    (hy : ∀ (t : Fin cfg1.N) (j : Fin 8192), (iblk1 V c 1 t : Vec Ideal S1x8192 .f32) (ix2 0 j) = yv (ix1 j))
    (h : 31 < cfg1.N) :
    (outsAt1 V c 31 h).1 (ix2 0 0) = Cert.Spec.pairSum xv yv := by
  have hN : cfg1.N = 32 := N_1
  -- the tile sums and the accumulator's entry as sequences over all naturals, 0 past the grid
  let T : ℕ → EReal := fun n =>
    if hn : n < cfg1.N then Cert.TileValue.tileSum (iblk1 V c 0 ⟨n, hn⟩) (iblk1 V c 1 ⟨n, hn⟩) else 0
  let A : ℕ → EReal := fun n => if hn : n < cfg1.N then (outsAt1 V c n hn).2 (ix2 0 0) else 0
  have hT' : ∀ (n : ℕ) (hn : n < cfg1.N),
      T n = Cert.TileValue.tileSum (iblk1 V c 0 ⟨n, hn⟩) (iblk1 V c 1 ⟨n, hn⟩) := fun n hn => dif_pos hn
  have hA' : ∀ (n : ℕ) (hn : n < cfg1.N), A n = (outsAt1 V c n hn).2 (ix2 0 0) := fun n hn => dif_pos hn
  have key : A 31 = Cert.Spec.pairSum xv yv := by
    refine Cert.SumAssembly.acc_total xv yv T (fun t => ?_) A ?_ (fun n hn => ?_)
    · -- tile t's sum, entry by entry
      have ht : t.val < cfg1.N := lt_of_lt_of_eq t.isLt hN.symm
      rw [hT' t.val ht]
      unfold Cert.TileValue.tileSum Cert.Spec.sq
      refine Finset.sum_congr rfl fun p _ => Finset.sum_congr rfl fun j _ => ?_
      have hp : p.val < 256 := p.isLt
      have ht32 : t.val < 32 := t.isLt
      have e1 := hx ⟨t.val, ht⟩ p (by show 256 * t.val + p.val < 8192; omega)
      have e2 := hy ⟨t.val, ht⟩ j
      rw [e1, e2]
    · rw [hA' 0 (lt_of_lt_of_eq (by omega) hN.symm), hT' 0 (lt_of_lt_of_eq (by omega) hN.symm)]
      exact acc1_zero V c _
    · have h1 : n + 1 < cfg1.N := lt_of_lt_of_eq hn hN.symm
      rw [hA' (n + 1) h1, hA' n (Nat.lt_of_succ_lt h1), hT' (n + 1) h1]
      exact acc1_succ V c n h1
  rw [out1_last V c h, ← hA' 31 h]
  exact key

/-! ## The third pair sum -/

/-- If the column window's block at point `t` holds entries `256 t … 256 t + 255` of `xv` and the row window's block
    holds all of `yv`, then after the last point the output entry is the sum over all pairs of the squared shifted
    differences of `xv` and `yv`. -/
theorem total2 (c : Dev nD) (xv yv : Cert.Spec.Vec8192)
    (hx : ∀ (t : Fin cfg2.N) (p : Fin 256) (hi : 256 * t.val + p.val < 8192),
      (iblk2 V c 0 t : Vec Ideal S256x1 .f32) (ix2 p 0) = xv (ix1 ⟨256 * t.val + p.val, hi⟩))
    (hy : ∀ (t : Fin cfg2.N) (j : Fin 8192), (iblk2 V c 1 t : Vec Ideal S1x8192 .f32) (ix2 0 j) = yv (ix1 j))
    (h : 31 < cfg2.N) :
    (outsAt2 V c 31 h).1 (ix2 0 0) = Cert.Spec.pairSum xv yv := by
  have hN : cfg2.N = 32 := N_2
  -- the tile sums and the accumulator's entry as sequences over all naturals, 0 past the grid
  let T : ℕ → EReal := fun n =>
    if hn : n < cfg2.N then Cert.TileValue.tileSum (iblk2 V c 0 ⟨n, hn⟩) (iblk2 V c 1 ⟨n, hn⟩) else 0
  let A : ℕ → EReal := fun n => if hn : n < cfg2.N then (outsAt2 V c n hn).2 (ix2 0 0) else 0
  have hT' : ∀ (n : ℕ) (hn : n < cfg2.N),
      T n = Cert.TileValue.tileSum (iblk2 V c 0 ⟨n, hn⟩) (iblk2 V c 1 ⟨n, hn⟩) := fun n hn => dif_pos hn
  have hA' : ∀ (n : ℕ) (hn : n < cfg2.N), A n = (outsAt2 V c n hn).2 (ix2 0 0) := fun n hn => dif_pos hn
  have key : A 31 = Cert.Spec.pairSum xv yv := by
    refine Cert.SumAssembly.acc_total xv yv T (fun t => ?_) A ?_ (fun n hn => ?_)
    · -- tile t's sum, entry by entry
      have ht : t.val < cfg2.N := lt_of_lt_of_eq t.isLt hN.symm
      rw [hT' t.val ht]
      unfold Cert.TileValue.tileSum Cert.Spec.sq
      refine Finset.sum_congr rfl fun p _ => Finset.sum_congr rfl fun j _ => ?_
      have hp : p.val < 256 := p.isLt
      have ht32 : t.val < 32 := t.isLt
      have e1 := hx ⟨t.val, ht⟩ p (by show 256 * t.val + p.val < 8192; omega)
      have e2 := hy ⟨t.val, ht⟩ j
      rw [e1, e2]
    · rw [hA' 0 (lt_of_lt_of_eq (by omega) hN.symm), hT' 0 (lt_of_lt_of_eq (by omega) hN.symm)]
      exact acc2_zero V c _
    · have h1 : n + 1 < cfg2.N := lt_of_lt_of_eq hn hN.symm
      rw [hA' (n + 1) h1, hA' n (Nat.lt_of_succ_lt h1), hT' (n + 1) h1]
      exact acc2_succ V c n h1
  rw [out2_last V c h, ← hA' 31 h]
  exact key

end Cert.KernelIdeal.Hand

end
-- ==== Proof.IBlocks.lean ====
/-
  The three launches' blocks, read off their arrays.

  Each launch walks the 8192 rows of a column in 32 tiles of 256 rows against one whole row of 8192 entries, and
  writes its one-entry result back once, after the last tile. So entry p of the column tile at grid point t is entry
  256 · t + p of the column, the row block at every point is the whole row, and the one-entry output array ends
  holding what the last point left in the output block.
-/
import proofs.«161244_j22591527977071_2_alg».proof.Proof.IR0Frame
import proofs.«161244_j22591527977071_2_alg».proof.Proof.IR1Frame
import proofs.«161244_j22591527977071_2_alg».proof.Proof.IR2Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## Launch 0 -/

/-- The row-tile window's index map over the grid: tile t on the row axis, 0 on the unit axis. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The whole-row window's index map never moves. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Row p of tile t is a row of the array: 256 · t + p < 8192 for t < 32 and p < 256. -/
theorem row_lt0 (t : Fin cfg0.N) (p : Fin 256) : 256 * t.val + p.val < 8192 := by
  have h : t.val < 32 := lt_of_lt_of_eq t.isLt (show cfg0.N = 32 from N_0)
  have hp : p.val < 256 := p.isLt
  omega

/-- Entry p of the column tile at grid point t is entry 256 · t + p of the column: a block's coordinate is the block
    index times the block size plus the coordinate inside the block. -/
theorem iblk0_0_apply (c : Dev nD) (t : Fin cfg0.N) (p : Fin 256) :
    (iblk0 V c 0 t : Vec F S256x1 .f32) (ix2 p (0 : Fin 1))
      = (V c main_v0 : S8192x1.Idx → Elt F .f32) (ix2 ⟨256 * t.val + p.val, row_lt0 t p⟩ (0 : Fin 1)) := by
  unfold iblk0
  rw [View.read_apply]
  show (V c main_v0 : S8192x1.Idx → Elt F .f32) _ = _
  congr 1
  funext a
  apply Fin.ext
  obtain ⟨e0, e1⟩ := idx0_0 t
  match a with
  | ⟨0, _⟩ =>
    show win0_0.index t (0 : Fin 2) * 256 + 1 * p.val = 256 * t.val + p.val
    rw [e0]; omega
  | ⟨1, _⟩ =>
    show win0_0.index t (1 : Fin 2) * 1 + 1 * (0 : Fin 1).val = (0 : Fin 1).val
    rw [e1, Nat.zero_mul, Nat.zero_add, Nat.one_mul]

/-- The row block at every grid point is the whole row. -/
theorem iblk0_1_apply (c : Dev nD) (t : Fin cfg0.N) (j : Fin 8192) :
    (iblk0 V c 1 t : Vec F S1x8192 .f32) (ix2 (0 : Fin 1) j)
      = (V c main_v1 : S1x8192.Idx → Elt F .f32) (ix2 (0 : Fin 1) j) := by
  unfold iblk0
  rw [View.read_apply]
  show (V c main_v1 : S1x8192.Idx → Elt F .f32) _ = _
  congr 1
  funext a
  apply Fin.ext
  obtain ⟨e0, e1⟩ := idx0_1 t
  match a with
  | ⟨0, _⟩ =>
    show win0_1.index t (0 : Fin 2) * 1 + 1 * (0 : Fin 1).val = (0 : Fin 1).val
    rw [e0, Nat.zero_mul, Nat.zero_add, Nat.one_mul]
  | ⟨1, _⟩ =>
    show win0_1.index t (1 : Fin 2) * 8192 + 1 * j.val = j.val
    rw [e1, Nat.zero_mul, Nat.zero_add, Nat.one_mul]

/-- The last grid point. -/
abbrev last0 : Fin cfg0.N := ⟨31, by rw [show cfg0.N = 32 from N_0]; decide⟩

/-- The one-entry output array after all grid points holds what the last point left in the output block: only the
    last point writes the block back, the block is the whole array, and it covers the array's one index. -/
theorem arrAt0_eq (c : Dev nD) :
    (dat0 V c).arrAt 2 cfg0.N = (outsAt0 V c 31 (by rw [show cfg0.N = 32 from N_0]; decide)).1 := by
  refine (dat0 V c).arrAt_eq_of_cover 2 _ (fun t hf => ?_) (fun i => ?_)
  · have hN : t.val < 32 := lt_of_lt_of_eq t.isLt (show cfg0.N = 32 from N_0)
    have h1 : t.val = 31 := by have := (flush0_2 t).mp hf; omega
    obtain rfl : t = last0 := Fin.ext h1
    show (cfg0.win 2).cut (grid0.coords last0) ((dat0 V c).after 2 last0) = _
    rw [after0_2]
    have hz' : (fun a => win0_2.index last0 a * main_v2.ty.shape.size a) = fun _ => 0 :=
      funext fun a => by fin_cases a <;> decide +kernel
    exact (Memref.read_access_unit_zero (Elt F) main_v2 hz' (fun a => by rw [congrFun hz' a]; simp) _).symm
  · refine ⟨last0, (flush0_2 last0).mpr rfl, ?_⟩
    show i ∈ ((View.whole main_v2).slice (win0_2.rect last0)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index last0 0 * win0_2.size 0 ≤ (i 0 : Nat) ∧ (i 0 : Nat) < win0_2.index last0 0 * win0_2.size 0 + win0_2.xsize (grid0.coords last0) 0
      rw [show win0_2.index last0 0 * win0_2.size 0 = 0 from by decide +kernel, show win0_2.xsize (grid0.coords last0) 0 = 1 from by decide +kernel]; omega
    | ⟨1, _⟩ =>
      show win0_2.index last0 1 * win0_2.size 1 ≤ (i 1 : Nat) ∧ (i 1 : Nat) < win0_2.index last0 1 * win0_2.size 1 + win0_2.xsize (grid0.coords last0) 1
      rw [show win0_2.index last0 1 * win0_2.size 1 = 0 from by decide +kernel, show win0_2.xsize (grid0.coords last0) 1 = 1 from by decide +kernel]; omega

/-- The same at the array's one index. -/
theorem arrAt0_out (c : Dev nD) :
    ((dat0 V c).arrAt 2 cfg0.N : S1x1.Idx → Elt F .f32) (ix2 (0 : Fin 1) (0 : Fin 1))
      = (outsAt0 V c 31 (by rw [show cfg0.N = 32 from N_0]; decide)).1 (ix2 (0 : Fin 1) (0 : Fin 1)) := by
  rw [arrAt0_eq]

/-! ## Launch 1 -/

/-- The row-tile window's index map over the grid: tile t on the row axis, 0 on the unit axis. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The whole-row window's index map never moves. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Row p of tile t is a row of the array: 256 · t + p < 8192 for t < 32 and p < 256. -/
theorem row_lt1 (t : Fin cfg1.N) (p : Fin 256) : 256 * t.val + p.val < 8192 := by
  have h : t.val < 32 := lt_of_lt_of_eq t.isLt (show cfg1.N = 32 from N_1)
  have hp : p.val < 256 := p.isLt
  omega

/-- Entry p of the column tile at grid point t is entry 256 · t + p of the column: a block's coordinate is the block
    index times the block size plus the coordinate inside the block. -/
theorem iblk1_0_apply (c : Dev nD) (t : Fin cfg1.N) (p : Fin 256) :
    (iblk1 V c 0 t : Vec F S256x1 .f32) (ix2 p (0 : Fin 1))
      = (V c main_v5 : S8192x1.Idx → Elt F .f32) (ix2 ⟨256 * t.val + p.val, row_lt1 t p⟩ (0 : Fin 1)) := by
  unfold iblk1
  rw [View.read_apply]
  show (V c main_v5 : S8192x1.Idx → Elt F .f32) _ = _
  congr 1
  funext a
  apply Fin.ext
  obtain ⟨e0, e1⟩ := idx1_0 t
  match a with
  | ⟨0, _⟩ =>
    show win1_0.index t (0 : Fin 2) * 256 + 1 * p.val = 256 * t.val + p.val
    rw [e0]; omega
  | ⟨1, _⟩ =>
    show win1_0.index t (1 : Fin 2) * 1 + 1 * (0 : Fin 1).val = (0 : Fin 1).val
    rw [e1, Nat.zero_mul, Nat.zero_add, Nat.one_mul]

/-- The row block at every grid point is the whole row. -/
theorem iblk1_1_apply (c : Dev nD) (t : Fin cfg1.N) (j : Fin 8192) :
    (iblk1 V c 1 t : Vec F S1x8192 .f32) (ix2 (0 : Fin 1) j)
      = (V c main_v6 : S1x8192.Idx → Elt F .f32) (ix2 (0 : Fin 1) j) := by
  unfold iblk1
  rw [View.read_apply]
  show (V c main_v6 : S1x8192.Idx → Elt F .f32) _ = _
  congr 1
  funext a
  apply Fin.ext
  obtain ⟨e0, e1⟩ := idx1_1 t
  match a with
  | ⟨0, _⟩ =>
    show win1_1.index t (0 : Fin 2) * 1 + 1 * (0 : Fin 1).val = (0 : Fin 1).val
    rw [e0, Nat.zero_mul, Nat.zero_add, Nat.one_mul]
  | ⟨1, _⟩ =>
    show win1_1.index t (1 : Fin 2) * 8192 + 1 * j.val = j.val
    rw [e1, Nat.zero_mul, Nat.zero_add, Nat.one_mul]

/-- The last grid point. -/
abbrev last1 : Fin cfg1.N := ⟨31, by rw [show cfg1.N = 32 from N_1]; decide⟩

/-- The one-entry output array after all grid points holds what the last point left in the output block: only the
    last point writes the block back, the block is the whole array, and it covers the array's one index. -/
theorem arrAt1_eq (c : Dev nD) :
    (dat1 V c).arrAt 2 cfg1.N = (outsAt1 V c 31 (by rw [show cfg1.N = 32 from N_1]; decide)).1 := by
  refine (dat1 V c).arrAt_eq_of_cover 2 _ (fun t hf => ?_) (fun i => ?_)
  · have hN : t.val < 32 := lt_of_lt_of_eq t.isLt (show cfg1.N = 32 from N_1)
    have h1 : t.val = 31 := by have := (flush1_2 t).mp hf; omega
    obtain rfl : t = last1 := Fin.ext h1
    show (cfg1.win 2).cut (grid1.coords last1) ((dat1 V c).after 2 last1) = _
    rw [after1_2]
    have hz' : (fun a => win1_2.index last1 a * main_v7.ty.shape.size a) = fun _ => 0 :=
      funext fun a => by fin_cases a <;> decide +kernel
    exact (Memref.read_access_unit_zero (Elt F) main_v7 hz' (fun a => by rw [congrFun hz' a]; simp) _).symm
  · refine ⟨last1, (flush1_2 last1).mpr rfl, ?_⟩
    show i ∈ ((View.whole main_v7).slice (win1_2.rect last1)).set
    rw [View.set_slice_whole, Rect.mem_set_unit]
    intro a
    have h0 : (i 0 : Nat) < 1 := (i 0).isLt
    have h1 : (i 1 : Nat) < 1 := (i 1).isLt
    match a with
    | ⟨0, _⟩ =>
      show win1_2.index last1 0 * win1_2.size 0 ≤ (i 0 : Nat) ∧ (i 0 : Nat) < win1_2.index last1 0 * win1_2.size 0 + win1_2.xsize (grid1.coords last1) 0
      rw [show win1_2.index last1 0 * win1_2.size 0 = 0 from by decide +kernel, show win1_2.xsize (grid1.coords last1) 0 = 1 from by decide +kernel]; omega
    | ⟨1, _⟩ =>
      show win1_2.index last1 1 * win1_2.size 1 ≤ (i 1 : Nat) ∧ (i 1 : Nat) < win1_2.index last1 1 * win1_2.size 1 + win1_2.xsize (grid1.coords last1) 1
      rw [show win1_2.index last1 1 * win1_2.size 1 = 0 from by decide +kernel, show win1_2.xsize (grid1.coords last1) 1 = 1 from by decide +kernel]; omega

/-- The same at the array's one index. -/
theorem arrAt1_out (c : Dev nD) :
    ((dat1 V c).arrAt 2 cfg1.N : S1x1.Idx → Elt F .f32) (ix2 (0 : Fin 1) (0 : Fin 1))
      = (outsAt1 V c 31 (by rw [show cfg1.N = 32 from N_1]; decide)).1 (ix2 (0 : Fin 1) (0 : Fin 1)) := by
  rw [arrAt1_eq]

/-! ## Launch 2 -/

/-- The row-tile window's index map over the grid: tile t on the row axis, 0 on the unit axis. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- The whole-row window's index map never moves. -/
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- Row p of tile t is a row of the array: 256 · t + p < 8192 for t < 32 and p < 256. -/
theorem row_lt2 (t : Fin cfg2.N) (p : Fin 256) : 256 * t.val + p.val < 8192 := by
  have h : t.val < 32 := lt_of_lt_of_eq t.isLt (show cfg2.N = 32 from N_2)
  have hp : p.val < 256 := p.isLt
  omega

/-- Entry p of the column tile at grid point t is entry 256 · t + p of the column: a block's coordinate is the block
    index times the block size plus the coordinate inside the block. -/
theorem iblk2_0_apply (c : Dev nD) (t : Fin cfg2.N) (p : Fin 256) :
    (iblk2 V c 0 t : Vec F S256x1 .f32) (ix2 p (0 : Fin 1))
      = (V c main_v10 : S8192x1.Idx → Elt F .f32) (ix2 ⟨256 * t.val + p.val, row_lt2 t p⟩ (0 : Fin 1)) := by
  unfold iblk2
  rw [View.read_apply]
  show (V c main_v10 : S8192x1.Idx → Elt F .f32) _ = _
  congr 1
  funext a
  apply Fin.ext
  obtain ⟨e0, e1⟩ := idx2_0 t
  match a with
  | ⟨0, _⟩ =>
    show win2_0.index t (0 : Fin 2) * 256 + 1 * p.val = 256 * t.val + p.val
    rw [e0]; omega
  | ⟨1, _⟩ =>
    show win2_0.index t (1 : Fin 2) * 1 + 1 * (0 : Fin 1).val = (0 : Fin 1).val
    rw [e1, Nat.zero_mul, Nat.zero_add, Nat.one_mul]

/-- The row block at every grid point is the whole row. -/
theorem iblk2_1_apply (c : Dev nD) (t : Fin cfg2.N) (j : Fin 8192) :
    (iblk2 V c 1 t : Vec F S1x8192 .f32) (ix2 (0 : Fin 1) j)
      = (V c main_v11 : S1x8192.Idx → Elt F .f32) (ix2 (0 : Fin 1) j) := by
  unfold iblk2
  rw [View.read_apply]
  show (V c main_v11 : S1x8192.Idx → Elt F .f32) _ = _
  congr 1
  funext a
  apply Fin.ext
  obtain ⟨e0, e1⟩ := idx2_1 t
  match a with
  | ⟨0, _⟩ =>
    show win2_1.index t (0 : Fin 2) * 1 + 1 * (0 : Fin 1).val = (0 : Fin 1).val
    rw [e0, Nat.zero_mul, Nat.zero_add, Nat.one_mul]
  | ⟨1, _⟩ =>
    show win2_1.index t (1 : Fin 2) * 8192 + 1 * j.val = j.val
    rw [e1, Nat.zero_mul, Nat.zero_add, Nat.one_mul]

/-- The last grid point. -/
abbrev last2 : Fin cfg2.N := ⟨31, by rw [show cfg2.N = 32 from N_2]; decide⟩

/-- The one-entry output array after all grid points holds what the last point left in the output block: only the
    last point writes the block back, the block is the whole array, and it covers the array's one index. -/
theorem arrAt2_eq (c : Dev nD) :
    (dat2 V c).arrAt 2 cfg2.N = (outsAt2 V c 31 (by rw [show cfg2.N = 32 from N_2]; decide)).1 := by
  refine (dat2 V c).arrAt_eq_of_cover 2 _ (fun t hf => ?_) (fun i => ?_)
  · have hN : t.val < 32 := lt_of_lt_of_eq t.isLt (show cfg2.N = 32 from N_2)
    have h1 : t.val = 31 := by have := (flush2_2 t).mp hf; omega
    obtain rfl : t = last2 := Fin.ext h1
    show (cfg2.win 2).cut (grid2.coords last2) ((dat2 V c).after 2 last2) = _
    rw [after2_2]
    have hz' : (fun a => win2_2.index last2 a * main_v12.ty.shape.size a) = fun _ => 0 :=
      funext fun a => by fin_cases a <;> decide +kernel
    exact (Memref.read_access_unit_zero (Elt F) main_v12 hz' (fun a => by rw [congrFun hz' a]; simp) _).symm
  · refine ⟨last2, (flush2_2 last2).mpr rfl, ?_⟩
    show i ∈ ((View.whole main_v12).slice (win2_2.rect last2)).set
    rw [View.set_slice_whole, Rect.mem_set_unit]
    intro a
    have h0 : (i 0 : Nat) < 1 := (i 0).isLt
    have h1 : (i 1 : Nat) < 1 := (i 1).isLt
    match a with
    | ⟨0, _⟩ =>
      show win2_2.index last2 0 * win2_2.size 0 ≤ (i 0 : Nat) ∧ (i 0 : Nat) < win2_2.index last2 0 * win2_2.size 0 + win2_2.xsize (grid2.coords last2) 0
      rw [show win2_2.index last2 0 * win2_2.size 0 = 0 from by decide +kernel, show win2_2.xsize (grid2.coords last2) 0 = 1 from by decide +kernel]; omega
    | ⟨1, _⟩ =>
      show win2_2.index last2 1 * win2_2.size 1 ≤ (i 1 : Nat) ∧ (i 1 : Nat) < win2_2.index last2 1 * win2_2.size 1 + win2_2.xsize (grid2.coords last2) 1
      rw [show win2_2.index last2 1 * win2_2.size 1 = 0 from by decide +kernel, show win2_2.xsize (grid2.coords last2) 1 = 1 from by decide +kernel]; omega

/-- The same at the array's one index. -/
theorem arrAt2_out (c : Dev nD) :
    ((dat2 V c).arrAt 2 cfg2.N : S1x1.Idx → Elt F .f32) (ix2 (0 : Fin 1) (0 : Fin 1))
      = (outsAt2 V c 31 (by rw [show cfg2.N = 32 from N_2]; decide)).1 (ix2 (0 : Fin 1) (0 : Fin 1)) := by
  rw [arrAt2_eq]

end Cert.KernelIdeal.Hand

end
-- ==== Proof.RefSide.lean ====
import proofs.«161244_j22591527977071_2_alg».proof.Defs
import proofs.«161244_j22591527977071_2_alg».proof.Proof.Gen.ReferenceIdeal.Run
import proofs.«161244_j22591527977071_2_alg».proof.Proof.Gen.ReferenceIdeal.Read
import proofs.«161244_j22591527977071_2_alg».proof.Proof.Spec
import Idealize.ShloMosaic.Lib.ValueIdx
import Idealize.ShloMosaic.PureOps.Ideal.Laws

/-
  The reference program computes the weighted combination of three pair means.

  Each pair mean is built the same way: a column (1 + x_i) of height 8192 and a row y_j of width 8192 are both
  spread over the 8192 × 8192 grid, subtracted, squared, summed over the whole grid starting from 0, and divided
  by 2²⁶. Read at the grid point (i, j) the squared array is ((1 + x_i) − y_j)², so the sum over the grid is the
  double sum over i and j, and 0 + S = S. The three weights are the three entries of the weight vector, each cut
  out as a one-element vector and then viewed as a scalar.
-/

noncomputable section

namespace Cert.RefSide

open Cert.ReferenceIdeal Cert.ReferenceIdeal.Gen Cert.ReferenceIdeal.Read Idealize.ShloMosaic Idealize.ShloMosaic.ValueIdx

/-- A length-8192 argument at the extended reals. -/
abbrev V : Type := (⟨S8192, .f32⟩ : BufTy).Contents (Elt Ideal)
/-- The weight argument at the extended reals. -/
abbrev W : Type := (⟨S3, .f32⟩ : BufTy).Contents (Elt Ideal)

/-! ## The squared array at a grid point -/

/-- First pair: rows come from the second argument, columns from the first. -/
theorem v7_at (x0 x1 : V) (a b : Fin 8192) :
    val_main_v7 (F := Ideal) x0 x1 (ix2 a b) = Cert.Spec.sq x1 x0 a b := by
  rw [val_main_v7_apply, val_main_v6_apply, val_main_v4_apply, val_main_v5_apply, val_main_v2_apply,
    val_main_v3_apply, val_main_v1_apply, val_main_v0_apply, val_main_cst_apply]
  have hr : idx_main_v0 (idx_main_v4 (ix2 a b)) = ix1 a := by
    funext d; match d with | ⟨0, _⟩ => rfl
  have hc : idx_main_v3 (idx_main_v5 (ix2 a b)) = ix1 b := by
    funext d; match d with | ⟨0, _⟩ => rfl
  rw [hr, hc]
  rfl

/-- Second pair: rows from the third argument, columns from the fourth. -/
theorem v17_at (x2 x3 : V) (a b : Fin 8192) :
    val_main_v17 (F := Ideal) x2 x3 (ix2 a b) = Cert.Spec.sq x2 x3 a b := by
  rw [val_main_v17_apply, val_main_v16_apply, val_main_v14_apply, val_main_v15_apply, val_main_v12_apply,
    val_main_v13_apply, val_main_v11_apply, val_main_v10_apply, val_main_cst_2_apply]
  have hr : idx_main_v10 (idx_main_v14 (ix2 a b)) = ix1 a := by
    funext d; match d with | ⟨0, _⟩ => rfl
  have hc : idx_main_v13 (idx_main_v15 (ix2 a b)) = ix1 b := by
    funext d; match d with | ⟨0, _⟩ => rfl
  rw [hr, hc]
  rfl

/-- Third pair: rows from the fourth argument, columns from the third. -/
theorem v27_at (x2 x3 : V) (a b : Fin 8192) :
    val_main_v27 (F := Ideal) x2 x3 (ix2 a b) = Cert.Spec.sq x3 x2 a b := by
  rw [val_main_v27_apply, val_main_v26_apply, val_main_v24_apply, val_main_v25_apply, val_main_v22_apply,
    val_main_v23_apply, val_main_v21_apply, val_main_v20_apply, val_main_cst_5_apply]
  have hr : idx_main_v20 (idx_main_v24 (ix2 a b)) = ix1 a := by
    funext d; match d with | ⟨0, _⟩ => rfl
  have hc : idx_main_v23 (idx_main_v25 (ix2 a b)) = ix1 b := by
    funext d; match d with | ⟨0, _⟩ => rfl
  rw [hr, hc]
  rfl

/-! ## The three pair means -/

/-- The sum over the grid, started from the zero word, divided by the pair count, is the pair mean. -/
theorem mean_v9 (x0 x1 : V) (i : S_.Idx) :
    val_main_v9 (F := Ideal) x0 x1 i = Cert.Spec.pairMean x1 x0 := by
  rw [val_main_v9_apply, val_main_v8_apply, val_main_cst_0_apply, val_main_cst_1_apply, Ideal.hostDivf_def,
    Ideal.ofBits_def, Ideal.ofBits_def, Ideal.ofBits_zero_f32, zero_add, sum_idx2]
  simp only [v7_at]
  rfl

theorem mean_v19 (x2 x3 : V) (i : S_.Idx) :
    val_main_v19 (F := Ideal) x2 x3 i = Cert.Spec.pairMean x2 x3 := by
  rw [val_main_v19_apply, val_main_v18_apply, val_main_cst_3_apply, val_main_cst_4_apply, Ideal.hostDivf_def,
    Ideal.ofBits_def, Ideal.ofBits_def, Ideal.ofBits_zero_f32, zero_add, sum_idx2]
  simp only [v17_at]
  rfl

theorem mean_v29 (x2 x3 : V) (i : S_.Idx) :
    val_main_v29 (F := Ideal) x2 x3 i = Cert.Spec.pairMean x3 x2 := by
  rw [val_main_v29_apply, val_main_v28_apply, val_main_cst_6_apply, val_main_cst_7_apply, Ideal.hostDivf_def,
    Ideal.ofBits_def, Ideal.ofBits_def, Ideal.ofBits_zero_f32, zero_add, sum_idx2]
  simp only [v27_at]
  rfl

/-! ## The three weights -/

/-- A one-element vector viewed as a scalar is its one element: both have row-major position 0. -/
theorem scalar_of_single {α : Type} (v : S1.Idx → α) (i : S_.Idx) :
    shapeCast S_ v shapeCasts_S1_S_ i = v (ix1 (0 : Fin 1)) :=
  shapeCast_apply v shapeCasts_S1_S_ i (ix1 (0 : Fin 1)) (by
    rw [Shape.rowMajor_val_one]
    exact (Shape.rowMajorPi_zero _ i).symm)

theorem v31_at (x4 : W) (i : S_.Idx) : val_main_v31 (F := Ideal) x4 i = x4 (ix1 (0 : Fin 3)) := by
  unfold val_main_v31
  rw [scalar_of_single, val_main_v30_apply]
  have h : idx_main_v30 (ix1 (0 : Fin 1)) = ix1 (0 : Fin 3) := by
    funext d; match d with | ⟨0, _⟩ => rfl
  rw [h]

theorem v34_at (x4 : W) (i : S_.Idx) : val_main_v34 (F := Ideal) x4 i = x4 (ix1 (1 : Fin 3)) := by
  unfold val_main_v34
  rw [scalar_of_single, val_main_v33_apply]
  have h : idx_main_v33 (ix1 (0 : Fin 1)) = ix1 (1 : Fin 3) := by
    funext d; match d with | ⟨0, _⟩ => rfl
  rw [h]

theorem v38_at (x4 : W) (i : S_.Idx) : val_main_v38 (F := Ideal) x4 i = x4 (ix1 (2 : Fin 3)) := by
  unfold val_main_v38
  rw [scalar_of_single, val_main_v37_apply]
  have h : idx_main_v37 (ix1 (0 : Fin 1)) = ix1 (2 : Fin 3) := by
    funext d; match d with | ⟨0, _⟩ => rfl
  rw [h]

/-! ## The result -/

/-- The reference's scalar result is the weighted combination of the three pair means. -/
theorem ref_result (x0 x1 x2 x3 : (⟨Cert.ReferenceIdeal.S8192, .f32⟩ : BufTy).Contents (Elt Ideal))
    (x4 : (⟨Cert.ReferenceIdeal.S3, .f32⟩ : BufTy).Contents (Elt Ideal)) (i : Cert.ReferenceIdeal.S_.Idx) :
    Cert.ReferenceIdeal.Read.val_main_v40 (F := Ideal) x0 x1 x2 x3 x4 i = Cert.Spec.result x0 x1 x2 x3 x4 := by
  rw [val_main_v40_apply, val_main_v36_apply, val_main_v39_apply, val_main_v32_apply, val_main_v35_apply,
    v31_at, v34_at, v38_at, mean_v9, mean_v19, mean_v29]
  rfl

end Cert.RefSide

end
-- ==== Proof.IValue.lean ====
/-
  The kernel program's value at the exact instance, and the claim that it is the reference's.

  Launch K of the kernel walks the 32 row tiles of its column operand x against the whole row operand y: the first
  point starts the accumulator at 0 + (tile 0's sum), each later point adds its tile's sum, and the last point copies
  the accumulator out. A tile's sum is Σ_p Σ_j ((1 + x_{256 t + p}) − y_j)², so the output is the sum over all
  8192 × 8192 pairs regrouped into 32 runs of 256 rows — a regrouping of a finite sum, valid on the extended reals
  with no finiteness assumed. Divided by the number of pairs and combined with the weights this is the specification's
  result, which is also what the reference's run ends with.
-/
import proofs.«161244_j22591527977071_2_alg».proof.Proof.IHost
import proofs.«161244_j22591527977071_2_alg».proof.Proof.ITotal
import proofs.«161244_j22591527977071_2_alg».proof.Proof.IBlocks
import proofs.«161244_j22591527977071_2_alg».proof.Proof.LibUnitColumn
import proofs.«161244_j22591527977071_2_alg».proof.Proof.RefSide
import proofs.«161244_j22591527977071_2_alg».proof.Defs
import proofs.«161244_j22591527977071_2_alg».proof.Proof.Gen.Pre_finite_inputs

set_option maxRecDepth 16384

noncomputable section

namespace Cert.KernelIdeal.Hand

open Cert.KernelIdeal Cert.KernelIdeal.Gen Cert.KernelIdeal.HostTail
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- A vector cast to a one-row matrix reads, at (0, j), the vector's entry j: both indices have row-major position j. -/
theorem row_cast_apply (x : (⟨1, ![8192]⟩ : Shape).Idx → EReal) (h : (⟨1, ![8192]⟩ : Shape).ShapeCasts ⟨2, ![1, 8192]⟩) (j : Fin 8192) :
    shapeCast ⟨2, ![1, 8192]⟩ x h (ix2 (0 : Fin 1) j) = x (ix1 j) :=
  shapeCast_apply x h _ _ (by
    rw [Shape.rowMajor_val_two, Shape.rowMajor_val_one]
    show j.val = (0 : Fin 1).val * 8192 + j.val
    simp)

/-! ## The three launches' outputs -/

/-- Launch 0 leaves the pair sum of `main_arg1` (rows) and `main_arg0` (columns) in its one-entry output. -/
theorem launch0_value (c : Dev nD) :
    ((dat0 (V1 m) c).arrAt 2 cfg0.N : S1x1.Idx → EReal) (ix2 (0 : Fin 1) (0 : Fin 1))
      = Cert.Spec.pairSum (m ((c : Thread nD τ).loc main_arg1)) (m ((c : Thread nD τ).loc main_arg0)) := by
  rw [arrAt0_out (V1 m) c]
  exact total0 (V1 m) c _ _
    (fun t p hi => by
      rw [iblk0_0_apply (V1 m) c t p, V1_x m c]
      exact Cert.LibUnitColumn.shapeCast_a_a1_apply _ _ _ _)
    (fun t j => by
      rw [iblk0_1_apply (V1 m) c t j, V1_y m c]
      exact row_cast_apply _ _ _) _

/-- Launch 1 leaves the pair sum of `main_arg2` (rows) and `main_arg3` (columns) in its one-entry output. -/
theorem launch1_value (c : Dev nD) :
    ((dat1 (V3 m) c).arrAt 2 cfg1.N : S1x1.Idx → EReal) (ix2 (0 : Fin 1) (0 : Fin 1))
      = Cert.Spec.pairSum (m ((c : Thread nD τ).loc main_arg2)) (m ((c : Thread nD τ).loc main_arg3)) := by
  rw [arrAt1_out (V3 m) c]
  exact total1 (V3 m) c _ _
    (fun t p hi => by
      rw [iblk1_0_apply (V3 m) c t p, V3_x m c]
      exact Cert.LibUnitColumn.shapeCast_a_a1_apply _ _ _ _)
    (fun t j => by
      rw [iblk1_1_apply (V3 m) c t j, V3_y m c]
      exact row_cast_apply _ _ _) _

/-- Launch 2 leaves the pair sum of `main_arg3` (rows) and `main_arg2` (columns) in its one-entry output. -/
theorem launch2_value (c : Dev nD) :
    ((dat2 (V5 m) c).arrAt 2 cfg2.N : S1x1.Idx → EReal) (ix2 (0 : Fin 1) (0 : Fin 1))
      = Cert.Spec.pairSum (m ((c : Thread nD τ).loc main_arg3)) (m ((c : Thread nD τ).loc main_arg2)) := by
  rw [arrAt2_out (V5 m) c]
  exact total2 (V5 m) c _ _
    (fun t p hi => by
      rw [iblk2_0_apply (V5 m) c t p, V5_x m c]
      exact Cert.LibUnitColumn.shapeCast_a_a1_apply _ _ _ _)
    (fun t j => by
      rw [iblk2_1_apply (V5 m) c t j, V5_y m c]
      exact row_cast_apply _ _ _) _

/-! ## The result -/

/-- The kernel program's result buffer, at its one index, is the specification's result of the arguments. -/
theorem result_eq (c : Dev nD) (i : S_.Idx) :
    (W7 m c (Proc.devRef .tc main_v25) : S_.Idx → EReal) i
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) := by
  rw [W7_v25 m c, combine_apply, launch0_value m c, launch1_value m c, launch2_value m c]
  rfl

/-! ## The claim -/

/-- From memories agreeing on the arguments both idealized programs run to the end with the specification's result in
    their result buffers and their arguments unchanged: the kernel program by its run and the lemmas above, the
    reference by its own run read one operation at a time. -/
theorem algebraic : Cert.algebraic_KernelIdeal_ReferenceIdeal := by
  intro m ρ m' ρ' _ hagree
  refine ⟨fun c => fun _ => Cert.Spec.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · refine (θ_run Cert.KernelIdeal.defs _ _).mono (fun r h c => ⟨?_, ?_, ?_, ?_, ?_, ?_⟩) (run_all (F := Ideal) m ρ)
    · exact (h c _ (mem_uc main_v25 (by decide))).trans (funext fun i => result_eq m c i)
    · exact (h c _ (mem_uc main_arg0 (by decide))).trans (W7_main_arg0 m c)
    · exact (h c _ (mem_uc main_arg1 (by decide))).trans (W7_main_arg1 m c)
    · exact (h c _ (mem_uc main_arg2 (by decide))).trans (W7_main_arg2 m c)
    · exact (h c _ (mem_uc main_arg3 (by decide))).trans (W7_main_arg3 m c)
    · exact (h c _ (mem_uc main_arg4 (by decide))).trans (W7_main_arg4 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v40_eq]
    funext i
    rw [Cert.RefSide.ref_result, (hagree c).1, (hagree c).2.1, (hagree c).2.2.1, (hagree c).2.2.2.1, (hagree c).2.2.2.2]

end Cert.KernelIdeal.Hand

end
-- ==== Proof.lean ====
/-
  The certificate of the pair-mean kernel against its reference.

  Each program is three launches of one kernel — for vectors x, y of length 8192 it accumulates, over 32 tiles of 256
  rows, the sum of ((1 + x_i) − y_j)² over all pairs (i, j) — between stretches of host operations that cast the
  arguments to a column and a row, divide each launch's sum by the number of pairs 2²⁶ and combine the three means with
  three weights. The reference computes each mean as one sum over the 8192 × 8192 grid.

  * The two kernel programs' frames (Proof/BRun.lean for the word-level program, Proof/IRun.lean for its idealization):
    @main as segments, each launch's body obligation by cases on the grid point (first / middle / last), the accumulator
    carried between points by the launch's invariant.
  * The reference's frame: its run with the result dropped.
  * The idealization rewrote nothing, so there is nothing to preserve.
  * Equal results at the exact instance (Proof/IValue.lean): both sides are the specification of Proof/Spec.lean; the
    kernel's grouping of the double sum into tiles is a regrouping of a finite sum.
-/
import proofs.«161244_j22591527977071_2_alg».proof.Defs
import proofs.«161244_j22591527977071_2_alg».proof.Proof.Gen.Kernel
import proofs.«161244_j22591527977071_2_alg».proof.Proof.Gen.KernelIdeal
import proofs.«161244_j22591527977071_2_alg».proof.Proof.Gen.ReferenceIdeal
import proofs.«161244_j22591527977071_2_alg».proof.Proof.Gen.ReferenceIdeal.Run
import proofs.«161244_j22591527977071_2_alg».proof.Proof.Gen.Pre_finite_inputs
import proofs.«161244_j22591527977071_2_alg».proof.Proof.BRun
import proofs.«161244_j22591527977071_2_alg».proof.Proof.IRun
import proofs.«161244_j22591527977071_2_alg».proof.Proof.IValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernel_ideal : Cert.frame_KernelIdeal := fun m ρ _ => Cert.KernelIdeal.Hand.frame (F := Ideal) m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, Cert.KernelIdeal.Hand.algebraic⟩

end Cert.Proof

end
